-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x512x32x32 .f32) (main_arg1 : FVec F S512x1024 .f32) (main_arg2 : FVec F S512x1024 .f32) (main_arg3 : FVec F S512 .f32) (main_arg4 : FVec F S1024x512 .f32) (main_arg5 : FVec F S1024 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16384x1024 : Shape := ⟨2, ![16384, 1024]⟩
abbrev S512x512 : Shape := ⟨2, ![512, 512]⟩
abbrev S1x512 : Shape := ⟨2, ![1, 512]⟩
abbrev S_ : Shape := ⟨0, ![]⟩
abbrev S1x1024 : Shape := ⟨2, ![1, 1024]⟩
abbrev S512x1 : Shape := ⟨2, ![512, 1]⟩
abbrev S32x512x1024 : Shape := ⟨3, ![32, 512, 1024]⟩
abbrev S32x512x512 : Shape := ⟨3, ![32, 512, 512]⟩
abbrev S1x512x1024 : Shape := ⟨3, ![1, 512, 1024]⟩
abbrev S1x512x512 : Shape := ⟨3, ![1, 512, 512]⟩
abbrev S16384x512 : Shape := ⟨2, ![16384, 512]⟩

abbrev nBuf : Space → Nat
  | .hbm => 40
  | .vmem => 9
  | .smem => 0
  | _ => 0

abbrev bufTy : (tb : Table) → Fin (tcTables nBuf tb) → BufTy
  | .hbm, ⟨0, _⟩ => ⟨S32x512x32x32, .f32⟩
  | .hbm, ⟨1, _⟩ => ⟨S512x1024, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S16384x1024, .f32⟩
  | .hbm, ⟨7, _⟩ => ⟨S1024x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S512x1, .f32⟩
  | .hbm, ⟨28, _⟩ => ⟨S_, .f32⟩
  | .hbm, ⟨29, _⟩ => ⟨S512x1, .f32⟩
  | .hbm, ⟨30, _⟩ => ⟨S512x1, .f32⟩
  | .hbm, ⟨31, _⟩ => ⟨S512x1024, .f32⟩
  | .hbm, ⟨32, _⟩ => ⟨S512x1024, .f32⟩
  | .hbm, ⟨33, _⟩ => ⟨S32x512x1024, .f32⟩
  | .hbm, ⟨34, _⟩ => ⟨S32x512x1024, .f32⟩
  | .hbm, ⟨35, _⟩ => ⟨S32x512x1024, .f32⟩
  | .hbm, ⟨36, _⟩ => ⟨S32x512x512, .f32⟩
  | .hbm, ⟨37, _⟩ => ⟨S32x512x32x32, .f32⟩
  | .hbm, ⟨38, _⟩ => ⟨S32x512x32x32, .f32⟩
  | .hbm, ⟨39, _⟩ => ⟨S16384x512, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x512, .f32⟩
  | .local _ .vmem, ⟨8, _⟩ => ⟨S1x512x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x512x32x32_S16384x1024 : S32x512x32x32.ShapeCasts S16384x1024
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  reducesTo_S512x1024_S512_d1 : S512x1024.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  shapeCasts_S32x512x32x32_S32x512x1024 : S32x512x32x32.ShapeCasts S32x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  broadcasts_S512x1_S512x512 : S512x1.Broadcasts S512x512
  bitsLt_bf16_f32 : FTy.bits .bf16 < FTy.bits .f32
  shapeCasts_S512x1_S512x1 : S512x1.ShapeCasts S512x1
  shapeCasts_S512x1024_S1x512x1024 : S512x1024.ShapeCasts S1x512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S32x512x1024_S32x512x32x32 : S32x512x1024.ShapeCasts S32x512x32x32
  shapeCasts_S32x512x512_S16384x512 : S32x512x512.ShapeCasts S16384x512
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S512x1024_S512x512_1_1_0_0_n_n_wf : DotDims.WF S512x1024 S512x1024 S512x512 [1] [1] [0] [0] [] []
  dot_S512x512_S512x1_S512x1_0_0_1_1_n_n_wf : DotDims.WF S512x512 S512x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .f32 = 32 ∨ (Rect.block (s := S32x512x512) S1x512x512.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1_S512x1_0_0_1_1_n_n : DotDims S512x512 S512x1 S512x1 where
  lhsContracting := [0]
  rhsContracting := [0]
  lhsNonContracting := [1]
  rhsNonContracting := [1]
  lhsBatch := []
  rhsBatch := []
  wf := dot_S512x512_S512x1_S512x1_0_0_1_1_n_n_wf

abbrev win0_0 : Pipeline.Window sig grid0 :=
  Pipeline.Window.ofSpec (Memref.whole main_v18) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_2) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S512x512 : Shape := ⟨2, ![512, 512]⟩
abbrev S1x512 : Shape := ⟨2, ![1, 512]⟩
abbrev S1x1024 : Shape := ⟨2, ![1, 1024]⟩
abbrev S512x1 : Shape := ⟨2, ![512, 1]⟩
abbrev S16384x512 : Shape := ⟨2, ![16384, 512]⟩
abbrev S32x512x512 : Shape := ⟨3, ![32, 512, 512]⟩
abbrev S32x512 : Shape := ⟨2, ![32, 512]⟩
abbrev S32x512x1x1 : Shape := ⟨4, ![32, 512, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S512x1024, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x1024, .f32⟩
  | .hbm, ⟨26, _⟩ => ⟨S512x1024, .f32⟩
  | .hbm, ⟨27, _⟩ => ⟨S1x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1024, .f32⟩
  | .hbm, ⟨42, _⟩ => ⟨S512x1024, .f32⟩
  | .hbm, ⟨43, _⟩ => ⟨S1024x512, .f32⟩
  | .hbm, ⟨44, _⟩ => ⟨S16384x512, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384x1, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x512, .f32⟩
  | .hbm, ⟨72, _⟩ => ⟨S16384x512, .f32⟩
  | .hbm, ⟨73, _⟩ => ⟨S16384x1024, .f32⟩
  | .hbm, ⟨74, _⟩ => ⟨S32x512x32x32, .f32⟩
  | .hbm, ⟨75, _⟩ => ⟨S32x512x512, .f32⟩
  | .hbm, ⟨76, _⟩ => ⟨S_, .f32⟩
  | .hbm, ⟨77, _⟩ => ⟨S32x512, .f32⟩
  | .hbm, ⟨78, _⟩ => ⟨S_, .f32⟩
  | .hbm, ⟨79, _⟩ => ⟨S32x512, .f32⟩
  | .hbm, ⟨80, _⟩ => ⟨S32x512, .f32⟩
  | .hbm, ⟨81, _⟩ => ⟨S32x512x1x1, .f32⟩
  | .hbm, ⟨82, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_call3_v0 : Ref sig .tc := ⟨.hbm, 33, rfl⟩
abbrev main_call3_cst : Ref sig .tc := ⟨.hbm, 34, rfl⟩
abbrev main_call3_v1 : Ref sig .tc := ⟨.hbm, 35, rfl⟩
abbrev main_call3_v2 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_call4_cst : Ref sig .tc := ⟨.hbm, 62, rfl⟩
abbrev main_call4_v0 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  shapeCasts_S32x512x32x32_S16384x1024 : S32x512x32x32.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  reducesTo_S512x1024_S512_d1 : S512x1024.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  reducesTo_S16384x512_S16384_d1 : S16384x512.ReducesTo [1] S16384
  bcast_S_S16384 : S_.BroadcastsInDim S16384 (![] : Fin 0 → Fin S16384.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  shapeCasts_S16384x1024_S32x512x32x32 : S16384x1024.ShapeCasts S32x512x32x32
  shapeCasts_S16384x512_S32x512x512 : S16384x512.ShapeCasts S32x512x512
  reducesTo_S32x512x512_S32x512_d1 : S32x512x512.ReducesTo [1] S32x512
  bcast_S_S32x512 : S_.BroadcastsInDim S32x512 (![] : Fin 0 → Fin S32x512.rank)
  bcast_S32x512_S32x512x1x1_0_1 : S32x512.BroadcastsInDim S32x512x1x1 (![0, 1] : Fin 2 → Fin S32x512x1x1.rank)
  bcast_S32x512x1x1_S32x512x32x32_0_1_2_3 : S32x512x1x1.BroadcastsInDim S32x512x32x32 (![0, 1, 2, 3] : Fin 4 → Fin S32x512x32x32.rank)
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S16384x1024_S1024x512_S16384x512_1_0_0_1_n_n_wf : DotDims.WF S16384x1024 S1024x512 S16384x512 [1] [0] [0] [1] [] []
  dot_S16384x512_S512x1024_S16384x1024_1_0_0_1_n_n_wf : DotDims.WF S16384x512 S512x1024 S16384x1024 [1] [0] [0] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.KernelRun.lean ====
/-
  The kernel program's run with its five results named.

  Around the one region the program only reshapes: the input is flattened to rows (a result) and cut into slabs (the
  region's first operand), the normalised bank is computed by the host (a result, and the region's second operand),
  and the region's three output arrays are reshaped into the remaining results. The host lines before the region
  compute the bank by the same operations as the reference program does.
-/
import proofs.«136410_j73375221285179_2_alg».proof.Proof.Gen.KernelIdeal.Frame
import proofs.«136410_j73375221285179_2_alg».proof.Proof.Gen.ReferenceIdeal.Read
import Idealize.ShloMosaic.Lib.Pipeline.Value
import Idealize.ShloMosaic.Lib.StableHlo.Run

noncomputable section

namespace Cert.Addressing.KernelRun

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The lines after the region -/

theorem tail_v20 (c : Dev nD) :
    Pipeline.afterTail₀ cfgs (dats m) 0 (V0 m) [hostOps1] c main_v20
      = shapeCast S32x512x32x32 ((dats m 0 c).arrAt 2 cfg0.N) shapeCasts_S32x512x1024_S32x512x32x32 := by
  unfold Pipeline.afterTail₀
  show StableHlo.after hostOps1 _ (Proc.devRef .tc main_v20) = _
  after_results
  rw [Pipeline.withArrays_arr spec0 launch0.win.arr_inj c _ _ 2]
  rfl

theorem tail_v21 (c : Dev nD) :
    Pipeline.afterTail₀ cfgs (dats m) 0 (V0 m) [hostOps1] c main_v21
      = shapeCast S32x512x32x32 ((dats m 0 c).arrAt 3 cfg0.N) shapeCasts_S32x512x1024_S32x512x32x32 := by
  unfold Pipeline.afterTail₀
  show StableHlo.after hostOps1 _ (Proc.devRef .tc main_v21) = _
  after_results
  rw [Pipeline.withArrays_arr spec0 launch0.win.arr_inj c _ _ 3]
  rfl

theorem tail_v22 (c : Dev nD) :
    Pipeline.afterTail₀ cfgs (dats m) 0 (V0 m) [hostOps1] c main_v22
      = shapeCast S16384x512 ((dats m 0 c).arrAt 4 cfg0.N) shapeCasts_S32x512x512_S16384x512 := by
  unfold Pipeline.afterTail₀
  show StableHlo.after hostOps1 _ (Proc.devRef .tc main_v22) = _
  after_results
  rw [Pipeline.withArrays_arr spec0 launch0.win.arr_inj c _ _ 4]
  rfl

/-- No line after the region writes the flattened input. -/
theorem tail_v0 (c : Dev nD) :
    Pipeline.afterTail₀ cfgs (dats m) 0 (V0 m) [hostOps1] c main_v0 = V m c main_v0 := by
  unfold Pipeline.afterTail₀
  show StableHlo.after hostOps1 _ (Proc.devRef .tc main_v0) = _
  after_results
  exact Pipeline.withArrays_of_ne _ c (V0 m c) _ main_v0 (by exact (by decide : ∀ w, Pipeline.arrRef spec0 w ≠ main_v0))

/-! ## The lines before the region -/

/-- The region's first operand is the input cut into slabs. -/
theorem V_v18 (c : Dev nD) : (V m c main_v18 : S32x512x1024.Idx → EReal)
    = shapeCast S32x512x1024 (m ((c.tc : Thread nD τ).loc main_arg0)) shapeCasts_S32x512x32x32_S32x512x1024 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The flattened input is the reference's. -/
theorem V_v0 (c : Dev nD) : (V m c main_v0 : S16384x1024.Idx → EReal)
    = Cert.ReferenceIdeal.Read.val_main_v0 (F := Ideal) (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

set_option maxHeartbeats 1000000 in
/-- The normalised bank is the reference's: the same host operations of the same arguments. -/
theorem V_v17 (c : Dev nD) : (V m c main_v17 : S512x1024.Idx → EReal)
    = Cert.ReferenceIdeal.Read.val_main_v22 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  generalize hR : Cert.ReferenceIdeal.Read.val_main_v22 (F := Ideal) _ _ _ _ _ = R
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rw [← hR]
  rfl

/-! ## The run -/

/-- Every weakly fair execution terminates with the five results at: the three output arrays reshaped, the flattened
    input, the bank; the arguments unchanged. -/
theorem run_named : θ_run defs (onTc (τ := τ) (main (F := Ideal))) ⟨m, fun _ => 0, ρ⟩ fun r => ∀ c : Dev nD,
      r.2.mem ((c.tc : Thread nD τ).loc main_v20) = shapeCast S32x512x32x32 ((dats m 0 c).arrAt 2 cfg0.N) shapeCasts_S32x512x1024_S32x512x32x32
      ∧ r.2.mem ((c.tc : Thread nD τ).loc main_v21) = shapeCast S32x512x32x32 ((dats m 0 c).arrAt 3 cfg0.N) shapeCasts_S32x512x1024_S32x512x32x32
      ∧ r.2.mem ((c.tc : Thread nD τ).loc main_v0) = V m c main_v0
      ∧ r.2.mem ((c.tc : Thread nD τ).loc main_v17) = V m c main_v17
      ∧ r.2.mem ((c.tc : Thread nD τ).loc main_v22) = shapeCast S16384x512 ((dats m 0 c).arrAt 4 cfg0.N) shapeCasts_S32x512x512_S16384x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v20 (Pipeline.mem_restRefs_of main_v20 (by decide) (by decide))).trans (tail_v20 m c),
      ((h c).2 main_v21 (Pipeline.mem_restRefs_of main_v21 (by decide) (by decide))).trans (tail_v21 m c),
      ((h c).2 main_v0 (Pipeline.mem_restRefs_of main_v0 (by decide) (by decide))).trans (tail_v0 m c),
      ((h c).1 1).trans (((dats m 0 c).arrAt_in 1 rfl _).trans (A_eq m c 1)),
      ((h c).2 main_v22 (Pipeline.mem_restRefs_of main_v22 (by decide) (by decide))).trans (tail_v22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Addressing.KernelRun

end
-- ==== Proof.Spec.lean ====
/-
  Cosine-similarity addressing of a memory bank, stated once, row by row, on the extended reals.

  A row `x` of the input is scaled to unit length, `u k = x k / max (√(Σ x²)) ε`; its similarity to bank row `j` is
  `sim j = Σ_k u k · B j k`; the similarities go through a softmax (`e j = exp (sim j − max sim)`, divided by `Σ e`),
  a hard shrink (`max (· − λ) 0`) and a renormalisation by `max (Σ ·) ε`. The read-out is `Σ_j att j · B j k`, and the
  channel average of a slab of 512 rows is the mean of their attention weights.

  Two spellings of the two quotients occur: `a / b` and `a · (1 / b)`. On the extended reals they agree whenever
  `b ≠ 0` (and differ at `0 / 0`), so the softmax needs its denominator nonzero: for REAL similarities every
  `e j` is a positive real and so is their sum. The second denominator is at least `ε > 0` always. The mean by
  division by 512 and the mean by multiplication with 1/512 agree on every extended real, and a nonnegative real
  factor distributes over any finite sum of extended reals.
-/
import Idealize.ShloMosaic.PureOps.Ideal
import Idealize.ShloMosaic.PureOps.Ideal.Laws
import Idealize.ShloMosaic.Lib.ValueIdx

noncomputable section

open scoped BigOperators

namespace Cert.Addressing

open Idealize.ShloMosaic Idealize.ShloMosaic.ValueIdx

/-! ## The literals -/

/-- The floor `ε` of both norms (the f32 nearest 1e-12). -/
def eps : EReal := Ideal.ofBits .f32 0x2B8CBCCC#32
/-- The shrink threshold `λ` (the f32 nearest 0.0025). -/
def shr : EReal := Ideal.ofBits .f32 0x3B23D70A#32

/-- `ε` is a positive real. -/
theorem eps_real_pos : ∃ r : ℝ, 0 < r ∧ eps = (r : EReal) := by
  unfold eps
  simp [Ideal.ofBits, Ideal.ieee, -EReal.coe_mul]

theorem eps_pos : (0 : EReal) < eps := by
  obtain ⟨r, hr, h⟩ := eps_real_pos
  rw [h]; exact_mod_cast hr

/-- `1/512` is a dyadic rational, so its pattern denotes it exactly. -/
theorem ofBits_inv512 : Ideal.ofBits .f32 0x3B000000#32 = ((1 / 512 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_neg_inf : Ideal.ofBits .f32 0xFF800000#32 = (⊥ : EReal) := by
  simp [Ideal.ofBits, Ideal.ieee]

/-! ## Real numbers among the extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type} (s : Finset ι) (f : ι → EReal) (hf : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (hf a (Finset.mem_insert_self a s)).add (ih fun i hi => hf i (Finset.mem_insert_of_mem hi))

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  unfold Ideal.div
  rw [if_neg h0, ← EReal.coe_inv, ← EReal.coe_mul]
  exact ⟨a * b⁻¹, rfl⟩

/-- The square root of a real, floored by `ε`, is a positive real: the root is a nonnegative real or the bottom
    element, and the floor is a positive real. -/
theorem sqrt_floor {x : EReal} (hx : IsReal x) : IsReal (max (Ideal.sqrt x) eps) ∧ max (Ideal.sqrt x) eps ≠ 0 := by
  obtain ⟨r, rfl⟩ := hx
  obtain ⟨e, he, hE⟩ := eps_real_pos
  refine ⟨?_, (lt_of_lt_of_le eps_pos (le_max_right _ _)).ne'⟩
  have hs : Ideal.sqrt (r : EReal) = if r < 0 then ⊥ else ((Real.sqrt r : ℝ) : EReal) := rfl
  rw [hs]
  split
  · rw [max_eq_right bot_le]; exact ⟨e, hE⟩
  · exact IsReal.max ⟨_, rfl⟩ ⟨e, hE⟩

/-! ## One row -/

variable {K M : ℕ}

/-- The row's length, floored: `max (√(Σ x²)) ε`. -/
def rowDen (x : Fin K → EReal) : EReal := max (Ideal.sqrt (∑ k, x k * x k)) eps

/-- The row's similarity to bank row `j`: the unit-length row against `B j`. -/
def rowSim (x : Fin K → EReal) (B : Fin M → Fin K → EReal) (j : Fin M) : EReal :=
  ∑ k, Ideal.div (x k) (rowDen x) * B j k

/-- Real rows have real similarities. -/
theorem rowSim_real (x : Fin K → EReal) (B : Fin M → Fin K → EReal) (hx : ∀ k, IsReal (x k))
    (hB : ∀ j k, IsReal (B j k)) (j : Fin M) : IsReal (rowSim x B j) := by
  have hd := sqrt_floor (IsReal.sum Finset.univ (fun k => x k * x k) fun k _ => (hx k).mul (hx k))
  exact IsReal.sum _ _ fun k _ => ((hx k).div hd.1 hd.2).mul (hB j k)

/-- The largest similarity of the row. -/
def rowMax (s : Fin M → EReal) : EReal := (Finset.univ : Finset (Fin M)).fold max ⊥ s

/-- The softmax numerator. -/
def rowExp (s : Fin M → EReal) (j : Fin M) : EReal := Ideal.exp (s j - rowMax s)

/-- Softmax by the quotient `q`, then the hard shrink. -/
def shrunk (q : EReal → EReal → EReal) (s : Fin M → EReal) (j : Fin M) : EReal :=
  max (q (rowExp s j) (∑ i, rowExp s i) - shr) 0

/-- The attention weights of one row from its similarities: softmax, shrink, renormalise; `q` is the quotient. -/
def address (q : EReal → EReal → EReal) (s : Fin M → EReal) (j : Fin M) : EReal :=
  q (shrunk q s j) (max (∑ i, shrunk q s i) eps)

/-- The quotient spelt as a product with the reciprocal. -/
def mulInv (a b : EReal) : EReal := a * Ideal.div 1 b

/-- Off a zero denominator the product with the reciprocal is the quotient. -/
theorem mulInv_eq_div {a b : EReal} (hb : b ≠ 0) : mulInv a b = Ideal.div a b := by
  unfold mulInv Ideal.div
  rw [if_neg hb, if_neg hb, one_mul]

theorem exp_nonneg (x : EReal) : 0 ≤ Ideal.exp x := by
  induction x using EReal.rec with
  | bot => exact le_of_eq rfl
  | coe r =>
    show (0 : EReal) ≤ ((Real.exp r : ℝ) : EReal)
    exact_mod_cast (Real.exp_pos r).le
  | top => exact le_top

/-- The largest of finitely many reals, at least one, is a real. -/
theorem rowMax_real (hM : 0 < M) (s : Fin M → EReal) (hs : ∀ j, IsReal (s j)) : IsReal (rowMax s) := by
  have h1 : rowMax s ≠ ⊤ := by
    refine ((Finset.fold_max_lt _).2 ⟨bot_lt_top, fun j _ => ?_⟩).ne
    obtain ⟨r, hr⟩ := hs j; rw [hr]; exact EReal.coe_lt_top r
  have h2 : rowMax s ≠ ⊥ := by
    refine ((Finset.lt_fold_max _).2 (Or.inr ⟨⟨0, hM⟩, Finset.mem_univ _, ?_⟩)).ne'
    obtain ⟨r, hr⟩ := hs ⟨0, hM⟩; rw [hr]; exact EReal.bot_lt_coe r
  exact ⟨_, (EReal.coe_toReal h1 h2).symm⟩

/-- For real similarities the softmax denominator is not zero: every numerator is nonnegative and the first one
    is the exponential of a real. -/
theorem sum_rowExp_ne_zero (hM : 0 < M) (s : Fin M → EReal) (hs : ∀ j, IsReal (s j)) : (∑ i, rowExp s i) ≠ 0 := by
  obtain ⟨μ, hμ⟩ := rowMax_real hM s hs
  obtain ⟨r, hr⟩ := hs ⟨0, hM⟩
  have h0 : (0 : EReal) < rowExp s ⟨0, hM⟩ := by
    unfold rowExp
    rw [hr, hμ, ← EReal.coe_sub]
    show (0 : EReal) < ((Real.exp (r - μ) : ℝ) : EReal)
    exact_mod_cast Real.exp_pos _
  have hle : rowExp s ⟨0, hM⟩ ≤ ∑ i, rowExp s i :=
    Finset.single_le_sum (f := rowExp s) (fun i _ => by unfold rowExp; exact exp_nonneg _) (Finset.mem_univ _)
  exact (lt_of_lt_of_le h0 hle).ne'

/-- THE LAW: for real similarities, at least one, the attention weights computed with products by reciprocals
    are the attention weights computed with quotients. -/
theorem address_mulInv (hM : 0 < M) (s : Fin M → EReal) (hs : ∀ j, IsReal (s j)) :
    address mulInv s = address Ideal.div s := by
  have hsh : shrunk mulInv s = shrunk Ideal.div s := by
    funext j
    unfold shrunk
    rw [mulInv_eq_div (sum_rowExp_ne_zero hM s hs)]
  funext j
  unfold address
  rw [hsh]
  exact mulInv_eq_div (lt_of_lt_of_le eps_pos (le_max_right _ _)).ne'

/-! ## The mean of a slab -/

/-- A nonnegative real factor distributes over a finite sum of extended reals. -/
theorem sum_mul_real {ι : Type} (s : Finset ι) (f : ι → EReal) (κ : ℝ) (hκ : 0 ≤ κ) :
    ∑ c ∈ s, f c * (κ : EReal) = (∑ c ∈ s, f c) * (κ : EReal) := by
  classical
  induction s using Finset.induction_on with
  | empty => rw [Finset.sum_empty, Finset.sum_empty, zero_mul]
  | insert a s ha ih =>
    rw [Finset.sum_insert ha, Finset.sum_insert ha, ih,
      EReal.right_distrib_of_nonneg_of_ne_top (by exact_mod_cast hκ) (EReal.coe_ne_top κ)]

/-- The mean of 512 terms by the factor 1/512 is their sum divided by 512. -/
theorem mean_512 {ι : Type} (s : Finset ι) (f : ι → EReal) :
    ∑ c ∈ s, f c * Ideal.ofBits .f32 0x3B000000#32 = Ideal.div (∑ c ∈ s, f c) (Ideal.ofBits .f32 0x44000000#32) := by
  rw [ofBits_inv512, ofBits_512, Ideal.div_coe (by norm_num : (512 : ℝ) ≠ 0), sum_mul_real s f _ (by norm_num)]

/-! ## The results as whole arrays

`X` is the input flattened to 16384 rows of 1024 entries (row `n · 512 + c` is channel `c` of sample `n`), `B` the
normalised memory bank, 512 rows of 1024. -/

abbrev SX : Shape := ⟨2, ![16384, 1024]⟩
abbrev SB : Shape := ⟨2, ![512, 1024]⟩
abbrev SA : Shape := ⟨2, ![16384, 512]⟩
abbrev SAvg : Shape := ⟨2, ![32, 512]⟩

/-- Row `r` of `X`. -/
def rowOf (X : SX.Idx → EReal) (r : Fin 16384) : Fin 1024 → EReal := fun k => X (ix2 r k)
/-- The bank by coordinates. -/
def bank (B : SB.Idx → EReal) : Fin 512 → Fin 1024 → EReal := fun j k => B (ix2 j k)

/-- The attention weights: entry `(r, j)`. -/
def attArr (X : SX.Idx → EReal) (B : SB.Idx → EReal) : SA.Idx → EReal :=
  fun i => address Ideal.div (rowSim (rowOf X (i 0)) (bank B)) (i 1)

/-- The read-out: entry `(r, k)` is `Σ_j att (r, j) · B (j, k)`. -/
def outArr (X : SX.Idx → EReal) (B : SB.Idx → EReal) : SX.Idx → EReal :=
  fun i => ∑ j : Fin 512, attArr X B (ix2 (i 0) j) * B (ix2 j (i 1))

/-- Row `n · 512 + c`. -/
def slabRow (n : Fin 32) (c : Fin 512) : Fin 16384 := ⟨n.val * 512 + c.val, by have := n.isLt; have := c.isLt; omega⟩

/-- The channel average: entry `(n, j)` is the sum over the 512 channels of sample `n`, divided by 512. -/
def avgArr (X : SX.Idx → EReal) (B : SB.Idx → EReal) : SAvg.Idx → EReal :=
  fun i => Ideal.div (∑ c : Fin 512, attArr X B (ix2 (slabRow (i 0) c) (i 1))) (Ideal.ofBits .f32 0x44000000#32)

end Cert.Addressing

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.KernelBlock.lean ====
/-
  What the kernel body computes from one slab, entry by entry, on the extended reals.

  The body loads a slab `x0` (512 rows of 1024, under a leading unit axis) and the bank `x1` (512 rows of 1024).
  Its arithmetic is cut into the steps of the specification: the rows scaled to unit length, their similarities to
  the bank's rows, the exponentials against the row maximum, the softmax by a reciprocal, the shrink, the
  renormalisation by a reciprocal; then the read-out product and the column means by a product with a column of
  1/512. Each step is read at an entry `(c, j)`.
-/
import proofs.«136410_j73375221285179_2_alg».proof.Proof.Gen.KernelIdeal.Skeleton
import proofs.«136410_j73375221285179_2_alg».proof.Proof.Spec
import proofs.«136410_j73375221285179_2_alg».proof.Proof.LibKeepdims
import proofs.«136410_j73375221285179_2_alg».proof.Proof.LibFlatten
import proofs.«136410_j73375221285179_2_alg».proof.Proof.LibPlainDot
import proofs.«136410_j73375221285179_2_alg».proof.Proof.LibTransposedRhsDot
import proofs.«136410_j73375221285179_2_alg».proof.Proof.LibLaneMax
import Idealize.ShloMosaic.Lib.Pipeline.Value
import Idealize.ShloMosaic.Lib.ValueIdx
import Idealize.ShloMosaic.PureOps.Ideal.Laws

noncomputable section

open scoped BigOperators

namespace Cert.Addressing.Block

open Idealize.ShloMosaic Idealize.ShloMosaic.ValueIdx Cert.KernelIdeal Cert.KernelIdeal.Gen Cert.Addressing

/-! ## The body's steps, as vector operations -/

section Steps
variable {F : FTy → Type} [FloatOps F]

/-- The slab without its leading unit axis. -/
def slab (x0 : Vec F S1x512x1024 .f32) : FVec F S512x1024 .f32 :=
  shapeCast S512x1024 x0 shapeCasts_S1x512x1024_S512x1024

/-- Every row divided by its floored length. -/
def unitV (v1 : FVec F S512x1024 .f32) : FVec F S512x1024 .f32 :=
  divf v1 (broadcastTo S512x1024 (maximumf (sqrt (shapeCast S512x1 (multiReduction .add [1] S512 (mulf v1 v1) 0x00000000#32 reduces_S512x1024_S512 (.inl rfl) rfl) shapeCasts_S512_S512x1)) (broadcast S512x1 (Scalar.ofBits .f32 0x2B8CBCCC#32))) broadcasts_S512x1_S512x1024)

/-- Rows against the bank's rows. -/
def simV (u : FVec F S512x1024 .f32) (x1 : Vec F S512x1024 .f32) : FVec F S512x512 .f32 :=
  matmul dot_S512x1024_S512x1024_S512x512_1_1_0_0_n_n (some .fp32) u (k0_pay4 x1) (constant S512x512 .f32 0x00000000#32)

/-- The exponential of each entry less its row's maximum. -/
def expV (s : FVec F S512x512 .f32) : FVec F S512x512 .f32 :=
  exp (subf s (broadcastTo S512x512 (shapeCast S512x1 (multiReduction .maximumf [1] S512 s 0xFF800000#32 reduces_S512x512_S512 (.inl rfl) rfl) shapeCasts_S512_S512x1) broadcasts_S512x1_S512x512))

/-- Each entry times the reciprocal of its row's sum. -/
def softV (e : FVec F S512x512 .f32) : FVec F S512x512 .f32 :=
  mulf e (broadcastTo S512x512 (divf (broadcast S512x1 (Scalar.ofBits .f32 0x3F800000#32)) (shapeCast S512x1 (multiReduction .add [1] S512 e 0x00000000#32 reduces_S512x512_S512 (.inl rfl) rfl) shapeCasts_S512_S512x1)) broadcasts_S512x1_S512x512)

/-- The hard shrink. -/
def shrinkV (a : FVec F S512x512 .f32) : FVec F S512x512 .f32 :=
  maximumf (subf a (broadcast S512x512 (Scalar.ofBits .f32 0x3B23D70A#32))) (broadcast S512x512 (Scalar.ofBits .f32 0x00000000#32))

/-- Each entry times the reciprocal of its row's floored sum. -/
def renormV (a : FVec F S512x512 .f32) : FVec F S512x512 .f32 :=
  mulf a (broadcastTo S512x512 (divf (broadcast S512x1 (Scalar.ofBits .f32 0x3F800000#32)) (maximumf (shapeCast S512x1 (multiReduction .add [1] S512 a 0x00000000#32 reduces_S512x512_S512 (.inl rfl) rfl) shapeCasts_S512_S512x1) (broadcast S512x1 (Scalar.ofBits .f32 0x2B8CBCCC#32)))) broadcasts_S512x1_S512x512)

/-- The attention weights of the slab are the six steps in order. -/
theorem pay5_eq (x0 : Vec F S1x512x1024 .f32) (x1 : Vec F S512x1024 .f32) :
    k0_pay5 x0 x1 = renormV (shrinkV (softV (expV (simV (unitV (slab x0)) x1)))) := rfl

/-- The read-out is the product of the weights with the bank (roundings of the operands aside). -/
theorem pay6_eq (x0 : Vec F S1x512x1024 .f32) (x1 : Vec F S512x1024 .f32) :
    k0_pay6 x0 x1 = matmul dot_S512x512_S512x1024_S512x1024_1_0_0_1_n_n none (truncf .bf16 (k0_pay5 x0 x1) bitsLt_bf16_f32)
      (truncf .bf16 (k0_pay4 x1) bitsLt_bf16_f32) (constant S512x1024 .f32 0x00000000#32) := rfl

end Steps

/-! ## The steps at an entry -/

theorem slab_at (x0 : Vec Ideal S1x512x1024 .f32) (c : Fin 512) (k : Fin 1024) :
    slab x0 (ix2 c k) = x0 (ix3 (0 : Fin 1) c k) :=
  Cert.LibFlatten.shapeCast_abc_Rc_apply x0 shapeCasts_S1x512x1024_S512x1024 (0 : Fin 1) c k c (by simp)

/-- A row sum kept as a column and spread back along the row, at an entry: the sum over the row. -/
theorem rowSum_col_at (src : FVec Ideal S512x512 .f32) (c : Fin 512) (u : Fin 1) :
    shapeCast S512x1 (multiReduction .add [1] S512 src 0x00000000#32 reduces_S512x512_S512 (.inl rfl) rfl) shapeCasts_S512_S512x1 (ix2 c u)
      = ∑ i : Fin 512, src (ix2 c i) :=
  (Cert.Keepdims.shapeCast_a_a1_apply _ shapeCasts_S512_S512x1 c u).trans
    (Cert.Keepdims.laneSum_apply src reduces_S512x512_S512 (.inl rfl) rfl c)

theorem unitV_at (v1 : FVec Ideal S512x1024 .f32) (c : Fin 512) (k : Fin 1024) :
    unitV v1 (ix2 c k) = Ideal.div (v1 (ix2 c k)) (rowDen fun k => v1 (ix2 c k)) := by
  unfold unitV rowDen
  refine congrArg (Ideal.div (v1 (ix2 c k))) ?_
  refine (Cert.Keepdims.broadcastTo_a1_ab_apply _ broadcasts_S512x1_S512x1024 c k).trans ?_
  refine congrArg (fun z => max (Ideal.sqrt z) eps) ?_
  exact (Cert.Keepdims.shapeCast_a_a1_apply _ shapeCasts_S512_S512x1 c 0).trans
    (Cert.Keepdims.laneSum_apply (mulf v1 v1) reduces_S512x1024_S512 (.inl rfl) rfl c)

theorem simV_at (u : FVec Ideal S512x1024 .f32) (x1 : Vec Ideal S512x1024 .f32) (c j : Fin 512) :
    simV u x1 (ix2 c j) = ∑ k : Fin 1024, u (ix2 c k) * x1 (ix2 j k) := by
  unfold simV k0_pay4
  rw [shapeCast_self]
  exact Cert.LibTransposedRhsDot.matmul_zero_apply (M := 512) (K := 1024) (N := 512) (some .fp32) u x1 c j

theorem expV_at (s : FVec Ideal S512x512 .f32) (c j : Fin 512) :
    expV s (ix2 c j) = rowExp (fun i => s (ix2 c i)) j := by
  unfold expV rowExp rowMax
  refine congrArg (fun z => Ideal.exp (s (ix2 c j) - z)) ?_
  refine (Cert.Keepdims.broadcastTo_a1_ab_apply _ broadcasts_S512x1_S512x512 c j).trans ?_
  exact (Cert.Keepdims.shapeCast_a_a1_apply _ shapeCasts_S512_S512x1 c 0).trans
    (Cert.LibLaneMax.laneMax_apply s reduces_S512x512_S512 (.inl rfl) rfl c)

theorem softV_at (e : FVec Ideal S512x512 .f32) (c j : Fin 512) :
    softV e (ix2 c j) = mulInv (e (ix2 c j)) (∑ i : Fin 512, e (ix2 c i)) := by
  unfold softV mulInv
  refine congrArg (fun z => e (ix2 c j) * z) ?_
  refine (Cert.Keepdims.broadcastTo_a1_ab_apply _ broadcasts_S512x1_S512x512 c j).trans ?_
  refine congrArg₂ Ideal.div ofBits_one ?_
  exact rowSum_col_at e c 0

theorem shrinkV_at (a : FVec Ideal S512x512 .f32) (c j : Fin 512) :
    shrinkV a (ix2 c j) = max (a (ix2 c j) - shr) 0 :=
  congrArg (fun z => max (a (ix2 c j) - shr) z) Ideal.ofBits_zero_f32

theorem renormV_at (a : FVec Ideal S512x512 .f32) (c j : Fin 512) :
    renormV a (ix2 c j) = mulInv (a (ix2 c j)) (max (∑ i : Fin 512, a (ix2 c i)) eps) := by
  unfold renormV mulInv
  refine congrArg (fun z => a (ix2 c j) * z) ?_
  refine (Cert.Keepdims.broadcastTo_a1_ab_apply _ broadcasts_S512x1_S512x512 c j).trans ?_
  refine congrArg₂ Ideal.div ofBits_one ?_
  exact congrArg (fun z => max z eps) (rowSum_col_at a c 0)

/-- THE WEIGHTS OF A SLAB at `(c, j)`: row `c`'s similarities to the bank, addressed with reciprocals. -/
theorem pay5_at (x0 : Vec Ideal S1x512x1024 .f32) (x1 : Vec Ideal S512x1024 .f32) (c j : Fin 512) :
    k0_pay5 x0 x1 (ix2 c j)
      = address mulInv (rowSim (fun k => x0 (ix3 (0 : Fin 1) c k)) (fun j k => x1 (ix2 j k))) j := by
  have hs : ∀ i : Fin 512, simV (unitV (slab x0)) x1 (ix2 c i)
      = rowSim (fun k => x0 (ix3 (0 : Fin 1) c k)) (fun j k => x1 (ix2 j k)) i := by
    intro i
    rw [simV_at]
    unfold rowSim
    refine Finset.sum_congr rfl fun k _ => ?_
    rw [unitV_at]
    simp only [slab_at]
  have he : ∀ i : Fin 512, expV (simV (unitV (slab x0)) x1) (ix2 c i)
      = rowExp (rowSim (fun k => x0 (ix3 (0 : Fin 1) c k)) (fun j k => x1 (ix2 j k))) i := by
    intro i
    rw [expV_at]
    simp only [hs]
  have ha : ∀ i : Fin 512, shrinkV (softV (expV (simV (unitV (slab x0)) x1))) (ix2 c i)
      = shrunk mulInv (rowSim (fun k => x0 (ix3 (0 : Fin 1) c k)) (fun j k => x1 (ix2 j k))) i := by
    intro i
    rw [shrinkV_at, softV_at]
    unfold shrunk
    simp only [he]
  rw [pay5_eq, renormV_at]
  unfold address
  simp only [ha]

/-- THE READ-OUT OF A SLAB at `(c, k)`: the weights of row `c` against column `k` of the bank. -/
theorem pay6_at (x0 : Vec Ideal S1x512x1024 .f32) (x1 : Vec Ideal S512x1024 .f32) (c : Fin 512) (k : Fin 1024) :
    k0_pay6 x0 x1 (ix2 c k) = ∑ j : Fin 512, k0_pay5 x0 x1 (ix2 c j) * x1 (ix2 j k) := by
  rw [pay6_eq]
  unfold k0_pay4
  rw [shapeCast_self]
  exact Cert.LibPlainDot.matmul_zero_apply 512 512 1024 none _ _ (ix2 c k)

end Cert.Addressing.Block

end
-- ==== Proof.LibTransposedLhsDot.lean ====
/-
  The product of the transpose of a K×M matrix with a K×N matrix, read at one entry.

  Both operands are contracted along their FIRST axis, so entry (p, q) of the M×N result is the sum over k of
  left (k, p) times right (k, q). Stated for the dimension record `dims K M N` below at the exact instance, for the
  accelerator's product into the zero accumulator; general in the three extents. A printed record with contracting
  axes [0] and [0], free axes [1] and [1] and no batch axes is this record (the two differ only in a proof field).
  With N = 1 and a constant right operand this is a column of weighted column sums.
-/
import Idealize.ShloMosaic.Lib.ValueIdx
import Idealize.ShloMosaic.PureOps.Ideal.Laws

noncomputable section

open scoped BigOperators

namespace Cert.LibTransposedLhsDot

open Idealize.ShloMosaic Idealize.ShloMosaic.ValueIdx

/-- Contract axis 0 of a K×M matrix with axis 0 of a K×N matrix. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand's index for result entry (p, q) and contraction position k is (k, p). -/
theorem lhsIdx_eq (p : Fin M) (q : Fin N) (k : Fin K) :
    (dims K M N).lhsIdx (ix2 p q) ((contrEquiv1 (dims K M N) K rfl rfl).symm k) = ix2 k p := by
  have hk := contrEquiv1_symm_val (dims K M N) K rfl rfl k
  funext a; apply Fin.ext
  match a with
  | ⟨0, _⟩ => exact ((dims K M N).lhsIdx_val_of_single rfl _ _).trans hk
  | ⟨1, _⟩ =>
    show ((dims K M N).lhsIdx (ix2 p q) _ 1).val = p.val
    unfold DotDims.lhsIdx
    rw [dif_neg (show ¬(1 : Fin 2) ∈ (dims K M N).lhsBatch from List.not_mem_nil),
      dif_pos (show (1 : Fin 2) ∈ (dims K M N).lhsNonContracting from List.mem_singleton.mpr rfl)]
    rfl

/-- The right operand's index for result entry (p, q) and contraction position k is (k, q). -/
theorem rhsIdx_eq (p : Fin M) (q : Fin N) (k : Fin K) :
    (dims K M N).rhsIdx (ix2 p q) ((contrEquiv1 (dims K M N) K rfl rfl).symm k) = ix2 k q := by
  have hk := contrEquiv1_symm_val (dims K M N) K rfl rfl k
  funext a; apply Fin.ext
  match a with
  | ⟨0, _⟩ => exact ((dims K M N).rhsIdx_val_of_single rfl _ _).trans hk
  | ⟨1, _⟩ =>
    show ((dims K M N).rhsIdx (ix2 p q) _ 1).val = q.val
    unfold DotDims.rhsIdx
    rw [dif_neg (show ¬(1 : Fin 2) ∈ (dims K M N).rhsBatch from List.not_mem_nil),
      dif_pos (show (1 : Fin 2) ∈ (dims K M N).rhsNonContracting from List.mem_singleton.mpr rfl)]
    rfl

/-- The accelerator's product into the zero accumulator: entry (p, q) is the sum over k of
    left (k, p) · right (k, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    matmul (dims K M N) prec l r (constant (F := Ideal) ⟨2, ![M, N]⟩ .f32 0x00000000#32) (ix2 p q)
      = ∑ k : Fin K, l (ix2 k p) * r (ix2 k q) := by
  refine (Ideal.matmul_constant_zero_apply (dims K M N) prec l r (ix2 p q)).trans ?_
  rw [← Equiv.sum_comp (contrEquiv1 (dims K M N) K rfl rfl).symm]
  refine Finset.sum_congr rfl fun k _ => ?_
  rw [lhsIdx_eq, rhsIdx_eq]

end Cert.LibTransposedLhsDot

end
-- ==== Proof.KernelSlab.lean ====
/-
  One slab of the kernel against the specification.

  At grid point `n` the body sees rows `n · 512 + c` of the flattened input as its slab, and the whole bank. Three
  blocks leave it: the read-out of the slab's rows, the slab's attention weights, and the mean over the slab's rows
  of each bank row's weight, spread along the 1024 lanes. For real inputs the weights computed with reciprocals are
  the specification's weights; the mean by the factor 1/512 is the specification's quotient by 512.
-/
import proofs.«136410_j73375221285179_2_alg».proof.Proof.KernelBlock
import proofs.«136410_j73375221285179_2_alg».proof.Proof.LibTransposedLhsDot

noncomputable section

open scoped BigOperators

namespace Cert.Addressing.Block

open Idealize.ShloMosaic Idealize.ShloMosaic.ValueIdx Cert.KernelIdeal Cert.KernelIdeal.Gen Cert.Addressing

/-! ## The three stored values at an entry of the block -/

theorem pay1_at (v38 : FVec Ideal S512x1024 .f32) (c : Fin 512) (k : Fin 1024) :
    k0_pay1 v38 (ix3 (0 : Fin 1) c k) = v38 (ix2 c k) :=
  Cert.LibFlatten.shapeCast_Rc_abc_apply v38 shapeCasts_S512x1024_S1x512x1024 (0 : Fin 1) c k c (by simp)

theorem pay3_at (v35 : FVec Ideal S512x512 .f32) (c j : Fin 512) :
    k0_pay3 v35 (ix3 (0 : Fin 1) c j) = v35 (ix2 c j) :=
  Cert.LibFlatten.shapeCast_Rc_abc_apply v35 shapeCasts_S512x512_S1x512x512 (0 : Fin 1) c j c (by simp)

/-- The spread column of means at `(j, k)`: the sum over the slab's rows `c` of the weight `(c, j)` times 1/512. -/
theorem pay2_at (v35 : FVec Ideal S512x512 .f32) (j : Fin 512) (k : Fin 1024) :
    k0_pay2 v35 (k0_pay7 (F := Ideal)) (constant (F := Ideal) S512x1 .f32 0x00000000#32) (ix3 (0 : Fin 1) j k)
      = ∑ c : Fin 512, v35 (ix2 c j) * Ideal.ofBits .f32 0x3B000000#32 := by
  unfold k0_pay2
  refine (Cert.LibFlatten.shapeCast_Rc_abc_apply _ shapeCasts_S512x1024_S1x512x1024 (0 : Fin 1) j k j (by simp)).trans ?_
  refine (Cert.Keepdims.broadcastTo_a1_ab_apply _ broadcasts_S512x1_S512x1024 j k).trans ?_
  rw [shapeCast_self]
  exact Cert.LibTransposedLhsDot.matmul_zero_apply (K := 512) (M := 512) (N := 1) none v35 (k0_pay7 (F := Ideal)) j 0

/-! ## The slab's blocks are the specification's -/

section Slab

variable (x0 : Vec Ideal S1x512x1024 .f32) (x1 : Vec Ideal S512x1024 .f32)
  (X : SX.Idx → EReal) (B : SB.Idx → EReal) (n : Fin 32)
  (h0 : ∀ (c : Fin 512) (k : Fin 1024), x0 (ix3 (0 : Fin 1) c k) = X (ix2 (slabRow n c) k))
  (h1 : ∀ (j : Fin 512) (k : Fin 1024), x1 (ix2 j k) = B (ix2 j k))
  (hX : ∀ i, IsReal (X i)) (hB : ∀ i, IsReal (B i))

include h0 h1 hX hB

/-- The slab's weights are the specification's weights of its rows. -/
theorem weights_at (c j : Fin 512) : k0_pay5 x0 x1 (ix2 c j) = attArr X B (ix2 (slabRow n c) j) := by
  rw [pay5_at]
  have e0 : (fun k => x0 (ix3 (0 : Fin 1) c k)) = rowOf X (slabRow n c) := funext fun k => h0 c k
  have e1 : (fun j k => x1 (ix2 j k)) = bank B := funext fun j => funext fun k => h1 j k
  rw [e0, e1]
  exact congrFun (address_mulInv (by norm_num) _
    (rowSim_real _ _ (fun k => hX _) (fun j k => hB _))) j

theorem block_att (c j : Fin 512) :
    k0_pay3 (k0_pay5 x0 x1) (ix3 (0 : Fin 1) c j) = attArr X B (ix2 (slabRow n c) j) :=
  (pay3_at _ c j).trans (weights_at x0 x1 X B n h0 h1 hX hB c j)

theorem block_out (c : Fin 512) (k : Fin 1024) :
    k0_pay1 (k0_pay6 x0 x1) (ix3 (0 : Fin 1) c k) = outArr X B (ix2 (slabRow n c) k) := by
  rw [pay1_at, pay6_at]
  unfold outArr
  refine Finset.sum_congr rfl fun j _ => ?_
  rw [weights_at x0 x1 X B n h0 h1 hX hB c j, h1 j k]

theorem block_avg (j : Fin 512) (k : Fin 1024) :
    k0_pay2 (k0_pay5 x0 x1) (k0_pay7 (F := Ideal)) (constant (F := Ideal) S512x1 .f32 0x00000000#32) (ix3 (0 : Fin 1) j k)
      = avgArr X B (ix2 n j) := by
  rw [pay2_at, mean_512]
  unfold avgArr
  refine congrArg (fun z => Ideal.div z _) ?_
  refine Finset.sum_congr rfl fun c _ => ?_
  exact weights_at x0 x1 X B n h0 h1 hX hB c j

end Slab

end Cert.Addressing.Block

end
-- ==== Proof.KernelArrays.lean ====
/-
  From the blocks the grid points write back to the three output arrays.

  Grid point `t` stages slab `t` of the input (rows `t · 512 + c` of the flattened input) and the whole bank, and
  writes back block `t` of each output: the 32 blocks tile each output array along its leading axis, so each output
  array ends as one function of the flattened input `X` and the bank `B`: the read-out, the spread channel
  means, and the attention weights, each with row `n · 512 + c` at position `(n, c)`.
-/
import proofs.«136410_j73375221285179_2_alg».proof.Proof.Gen.KernelIdeal.Frame
import proofs.«136410_j73375221285179_2_alg».proof.Proof.KernelSlab
import Idealize.ShloMosaic.Lib.Pipeline.Value

noncomputable section

namespace Cert.Addressing.Arrays

open Cert.KernelIdeal Cert.KernelIdeal.Gen Idealize.ShloMosaic Idealize.ShloMosaic.TcCoe Idealize.SL.Sem
open Idealize.ShloMosaic.ValueIdx Cert.Addressing Cert.Addressing.Block
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 grid points: the slab windows sit at block `t` of the leading axis, the bank
    at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The read-out array: position `(n, c, k)` holds row `n · 512 + c`, column `k`. -/
def GOut (X : SX.Idx → EReal) (B : SB.Idx → EReal) : S32x512x1024.Idx → EReal :=
  fun i => outArr X B (ix2 (slabRow (i 0) (i 1)) (i 2))
/-- The spread channel means: position `(n, j, k)` holds the mean of bank row `j`'s weight over sample `n`. -/
def GAvg (X : SX.Idx → EReal) (B : SB.Idx → EReal) : S32x512x1024.Idx → EReal :=
  fun i => avgArr X B (ix2 (i 0) (i 1))
/-- The attention weights: position `(n, c, j)` holds row `n · 512 + c`, bank row `j`. -/
def GAtt (X : SX.Idx → EReal) (B : SB.Idx → EReal) : S32x512x512.Idx → EReal :=
  fun i => attArr X B (ix2 (slabRow (i 0) (i 1)) (i 2))

/-! ## Output window 2: where its blocks sit -/

theorem emb2 (t : Fin cfg0.N) (cc : Fin 512) (k : Fin 1024) :
    ((cfg0.win 2).blk t).view.emb (ix3 (0 : Fin 1) cc k) = ix3 (Fin.cast N_0 t) cc k := by
  obtain ⟨-, -, ⟨o2, o3, o4⟩, -⟩ := idx_facts t
  funext a; apply Fin.ext
  match a with
  | ⟨0, _⟩ => show win0_2.index t (0 : Fin 3) * 1 + 1 * 0 = t.val; omega
  | ⟨1, _⟩ => show win0_2.index t (1 : Fin 3) * 512 + 1 * cc.val = cc.val; omega
  | ⟨2, _⟩ => show win0_2.index t (2 : Fin 3) * 1024 + 1 * k.val = k.val; omega

theorem mem_blk2 (t : Fin cfg0.N) (i : S32x512x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v19_0).slice (win0_2.rect t)).set ↔ _
  rw [View.set_slice_whole, Rect.mem_set_unit]
  exact Iff.rfl

/-- Every index lies in the block of the point its leading coordinate names. -/
theorem cover2 (i : S32x512x1024.Idx) : ∃ t : Fin cfg0.N, (cfg0.win 2).flush t = true ∧ i ∈ ((cfg0.win 2).blk t).view.set := by
  have h0 : (i 0).val < 32 := (i 0).isLt
  have h1 : (i 1).val < 512 := (i 1).isLt
  have h2 : (i 2).val < 1024 := (i 2).isLt
  obtain ⟨t, ht⟩ : ∃ t : Fin cfg0.N, t.val = (i 0).val := ⟨Fin.cast N_0.symm ⟨(i 0).val, h0⟩, rfl⟩
  refine ⟨t, flush0_2 t, ?_⟩
  rw [mem_blk2]
  obtain ⟨-, -, ⟨o2, o3, o4⟩, -⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-! ## Output window 3: where its blocks sit -/

theorem emb3 (t : Fin cfg0.N) (j : Fin 512) (k : Fin 1024) :
    ((cfg0.win 3).blk t).view.emb (ix3 (0 : Fin 1) j k) = ix3 (Fin.cast N_0 t) j k := by
  obtain ⟨-, -, -, ⟨o2, o3, o4⟩, -⟩ := idx_facts t
  funext a; apply Fin.ext
  match a with
  | ⟨0, _⟩ => show win0_3.index t (0 : Fin 3) * 1 + 1 * 0 = t.val; omega
  | ⟨1, _⟩ => show win0_3.index t (1 : Fin 3) * 512 + 1 * j.val = j.val; omega
  | ⟨2, _⟩ => show win0_3.index t (2 : Fin 3) * 1024 + 1 * k.val = k.val; omega

theorem mem_blk3 (t : Fin cfg0.N) (i : S32x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v19_1).slice (win0_3.rect t)).set ↔ _
  rw [View.set_slice_whole, Rect.mem_set_unit]
  exact Iff.rfl

/-- Every index lies in the block of the point its leading coordinate names. -/
theorem cover3 (i : S32x512x1024.Idx) : ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 1024 := (i 2).isLt
  obtain ⟨t, ht⟩ : ∃ t : Fin cfg0.N, t.val = (i 0).val := ⟨Fin.cast N_0.symm ⟨(i 0).val, h0⟩, rfl⟩
  refine ⟨t, flush0_3 t, ?_⟩
  rw [mem_blk3]
  obtain ⟨-, -, -, ⟨o2, o3, o4⟩, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-! ## Output window 4: where its blocks sit -/

theorem emb4 (t : Fin cfg0.N) (cc : Fin 512) (j : Fin 512) :
    ((cfg0.win 4).blk t).view.emb (ix3 (0 : Fin 1) cc j) = ix3 (Fin.cast N_0 t) cc j := by
  obtain ⟨-, -, -, -, o2, o3, o4⟩ := idx_facts t
  funext a; apply Fin.ext
  match a with
  | ⟨0, _⟩ => show win0_4.index t (0 : Fin 3) * 1 + 1 * 0 = t.val; omega
  | ⟨1, _⟩ => show win0_4.index t (1 : Fin 3) * 512 + 1 * cc.val = cc.val; omega
  | ⟨2, _⟩ => show win0_4.index t (2 : Fin 3) * 512 + 1 * j.val = j.val; omega

theorem mem_blk4 (t : Fin cfg0.N) (i : S32x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v19_2).slice (win0_4.rect t)).set ↔ _
  rw [View.set_slice_whole, Rect.mem_set_unit]
  exact Iff.rfl

/-- Every index lies in the block of the point its leading coordinate names. -/
theorem cover4 (i : S32x512x512.Idx) : ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  obtain ⟨t, ht⟩ : ∃ t : Fin cfg0.N, t.val = (i 0).val := ⟨Fin.cast N_0.symm ⟨(i 0).val, h0⟩, rfl⟩
  refine ⟨t, flush0_4 t, ?_⟩
  rw [mem_blk4]
  obtain ⟨-, -, -, -, o2, o3, o4⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

variable (m : (ℓ : Loc nD τ sig) → Buf (Elt Ideal) ℓ)

/-! ## The input blocks -/

/-- The slab at point `t` is slab `t` of the staged input. -/
theorem read_x (c : Dev nD) (t : Fin cfg0.N) (cc : Fin 512) (k : Fin 1024) :
    iblk m c 0 t (ix3 (0 : Fin 1) cc k) = V m c main_v18 (ix3 (Fin.cast N_0 t) cc k) := by
  obtain ⟨⟨e0, e1, e2⟩, -⟩ := idx_facts t
  show V m c main_v18 (((cfg0.win 0).blk t).view.emb (ix3 (0 : Fin 1) cc k)) = V m c main_v18 (ix3 (Fin.cast N_0 t) cc k)
  refine congrArg (V m c main_v18) ?_
  funext a; apply Fin.ext
  match a with
  | ⟨0, _⟩ => show win0_0.index t (0 : Fin 3) * 1 + 1 * 0 = t.val; omega
  | ⟨1, _⟩ => show win0_0.index t (1 : Fin 3) * 512 + 1 * cc.val = cc.val; omega
  | ⟨2, _⟩ => show win0_0.index t (2 : Fin 3) * 1024 + 1 * k.val = k.val; omega

/-- The bank's block is the whole bank at every point. -/
theorem read_b (c : Dev nD) (t : Fin cfg0.N) (j : Fin 512) (k : Fin 1024) :
    iblk m c 1 t (ix2 j k) = V m c main_v17 (ix2 j k) := by
  obtain ⟨-, ⟨e0, e1⟩, -⟩ := idx_facts t
  show V m c main_v17 (((cfg0.win 1).blk t).view.emb (ix2 j k)) = V m c main_v17 (ix2 j k)
  refine congrArg (V m c main_v17) ?_
  funext a; apply Fin.ext
  match a with
  | ⟨0, _⟩ => show win0_1.index t (0 : Fin 2) * 512 + 1 * j.val = j.val; omega
  | ⟨1, _⟩ => show win0_1.index t (1 : Fin 2) * 1024 + 1 * k.val = k.val; omega

variable (X : SX.Idx → EReal) (B : SB.Idx → EReal) (c : Dev nD)
  (hX3 : ∀ (n : Fin 32) (cc : Fin 512) (k : Fin 1024), V m c main_v18 (ix3 n cc k) = X (ix2 (slabRow n cc) k))
  (hB : ∀ (j : Fin 512) (k : Fin 1024), V m c main_v17 (ix2 j k) = B (ix2 j k))
  (hXr : ∀ i, IsReal (X i)) (hBr : ∀ i, IsReal (B i))

include hX3 hB hXr hBr

/-! ## Output window 2: what it ends holding -/

/-- What point `t` writes back is block `t` of the specification's array. -/
theorem flushed2_eq (t : Fin cfg0.N) :
    (dats m 0 c).flushed 2 t = ((cfg0.win 2).blk t).view.read (Elt Ideal) (GOut X B) := by
  show (cfg0.win 2).cut (grid0.coords t) ((dats m 0 c).after 2 t) = _
  rw [after0_2]
  unfold out0_2
  rw [View.canon_unit_zero hz3]
  simp only [View.ld_unit_zero (S := S1x512x1024) hz3, View.ld_unit_zero (S := S512x1024) hz2]
  funext y
  obtain ⟨u, cc, k, rfl⟩ : ∃ (u : Fin 1) (cc : Fin 512) (k : Fin 1024), y = ix3 u cc k := ⟨y 0, y 1, y 2, eq_ix3 y⟩
  obtain rfl : u = 0 := Subsingleton.elim _ _
  show k0_pay1 (k0_pay6 (iblk m c 0 t) (iblk m c 1 t)) (ix3 (0 : Fin 1) cc k)
    = GOut X B (((cfg0.win 2).blk t).view.emb (ix3 (0 : Fin 1) cc k))
  rw [emb2 t cc k]
  exact block_out (iblk m c 0 t) (iblk m c 1 t) X B (Fin.cast N_0 t)
    (fun cc k => (read_x m c t cc k).trans (hX3 (Fin.cast N_0 t) cc k)) (fun j k => (read_b m c t j k).trans (hB j k)) hXr hBr cc k

/-- The array after the run is the specification's. -/
theorem final2 : (dats m 0 c).arrAt 2 cfg0.N = GOut X B :=
  (dats m 0 c).arrAt_eq_of_cover 2 (GOut X B) (fun t _ => flushed2_eq m X B c hX3 hB hXr hBr t) cover2

/-! ## Output window 3: what it ends holding -/

/-- What point `t` writes back is block `t` of the specification's array. -/
theorem flushed3_eq (t : Fin cfg0.N) :
    (dats m 0 c).flushed 3 t = ((cfg0.win 3).blk t).view.read (Elt Ideal) (GAvg X B) := by
  show (cfg0.win 3).cut (grid0.coords t) ((dats m 0 c).after 3 t) = _
  rw [after0_3]
  unfold out0_3
  rw [View.canon_unit_zero hz3]
  simp only [View.ld_unit_zero (S := S1x512x1024) hz3, View.ld_unit_zero (S := S512x1024) hz2]
  funext y
  obtain ⟨u, j, k, rfl⟩ : ∃ (u : Fin 1) (j : Fin 512) (k : Fin 1024), y = ix3 u j k := ⟨y 0, y 1, y 2, eq_ix3 y⟩
  obtain rfl : u = 0 := Subsingleton.elim _ _
  show k0_pay2 (k0_pay5 (iblk m c 0 t) (iblk m c 1 t)) (k0_pay7 (F := Ideal)) (constant (F := Ideal) S512x1 .f32 0x00000000#32) (ix3 (0 : Fin 1) j k)
    = GAvg X B (((cfg0.win 3).blk t).view.emb (ix3 (0 : Fin 1) j k))
  rw [emb3 t j k]
  exact block_avg (iblk m c 0 t) (iblk m c 1 t) X B (Fin.cast N_0 t)
    (fun cc k => (read_x m c t cc k).trans (hX3 (Fin.cast N_0 t) cc k)) (fun j k => (read_b m c t j k).trans (hB j k)) hXr hBr j k

/-- The array after the run is the specification's. -/
theorem final3 : (dats m 0 c).arrAt 3 cfg0.N = GAvg X B :=
  (dats m 0 c).arrAt_eq_of_cover 3 (GAvg X B) (fun t _ => flushed3_eq m X B c hX3 hB hXr hBr t) cover3

/-! ## Output window 4: what it ends holding -/

/-- What point `t` writes back is block `t` of the specification's array. -/
theorem flushed4_eq (t : Fin cfg0.N) :
    (dats m 0 c).flushed 4 t = ((cfg0.win 4).blk t).view.read (Elt Ideal) (GAtt X B) := by
  show (cfg0.win 4).cut (grid0.coords t) ((dats m 0 c).after 4 t) = _
  rw [after0_4]
  unfold out0_4
  rw [View.canon_unit_zero hz3]
  simp only [View.ld_unit_zero (S := S1x512x1024) hz3, View.ld_unit_zero (S := S512x1024) hz2]
  funext y
  obtain ⟨u, cc, j, rfl⟩ : ∃ (u : Fin 1) (cc : Fin 512) (j : Fin 512), y = ix3 u cc j := ⟨y 0, y 1, y 2, eq_ix3 y⟩
  obtain rfl : u = 0 := Subsingleton.elim _ _
  show k0_pay3 (k0_pay5 (iblk m c 0 t) (iblk m c 1 t)) (ix3 (0 : Fin 1) cc j)
    = GAtt X B (((cfg0.win 4).blk t).view.emb (ix3 (0 : Fin 1) cc j))
  rw [emb4 t cc j]
  exact block_att (iblk m c 0 t) (iblk m c 1 t) X B (Fin.cast N_0 t)
    (fun cc k => (read_x m c t cc k).trans (hX3 (Fin.cast N_0 t) cc k)) (fun j k => (read_b m c t j k).trans (hB j k)) hXr hBr cc j

/-- The array after the run is the specification's. -/
theorem final4 : (dats m 0 c).arrAt 4 cfg0.N = GAtt X B :=
  (dats m 0 c).arrAt_eq_of_cover 4 (GAtt X B) (fun t _ => flushed4_eq m X B c hX3 hB hXr hBr t) cover4

end Cert.Addressing.Arrays

end
-- ==== Proof.Reshapes.lean ====
/-
  The results' reshapes, read by row-major position.

  A reshape keeps the row-major order. Position `(n, c, k)` of a `[32, 512, K]` array and position
  `(n · 512 + c, k)` of the `[16384, K]` array have the same row-major position, so an array given slab by slab and
  the array given row by row reshape to the same thing; and position `(n, j, h, w)` of `[32, 512, 32, 32]` comes from
  position `(n, j, h · 32 + w)` of `[32, 512, 1024]`.
-/
import proofs.«136410_j73375221285179_2_alg».proof.Proof.Spec
import proofs.«136410_j73375221285179_2_alg».proof.Proof.LibFlatten
import Idealize.ShloMosaic.Lib.Pipeline.Value

noncomputable section

namespace Cert.Addressing.Reshapes

open Idealize.ShloMosaic Idealize.ShloMosaic.ValueIdx Cert.Addressing

variable {α : Type}

abbrev S3 : Shape := ⟨3, ![32, 512, 1024]⟩
abbrev S3a : Shape := ⟨3, ![32, 512, 512]⟩
abbrev S4 : Shape := ⟨4, ![32, 512, 32, 32]⟩

/-- Two arrays that agree at equal row-major positions reshape to the same array. -/
theorem shapeCast_congr {s s' t : Shape} (x : s.Idx → α) (x' : s'.Idx → α) (h : s.ShapeCasts t) (h' : s'.ShapeCasts t)
    (hx : ∀ (i : s.Idx) (i' : s'.Idx), (s.rowMajor i).val = (s'.rowMajor i').val → x i = x' i') :
    shapeCast t x h = shapeCast t x' h' := by
  funext j
  unfold shapeCast
  exact hx _ _ ((Shape.rowMajor_reshapeEquiv _ j).trans (Shape.rowMajor_reshapeEquiv _ j).symm)

/-- One array reshaped two ways agrees at equal row-major positions. -/
theorem shapeCast_eq_shapeCast {s t t' : Shape} (x : s.Idx → α) (h : s.ShapeCasts t) (h' : s.ShapeCasts t')
    (j : t.Idx) (j' : t'.Idx) (e : (t.rowMajor j).val = (t'.rowMajor j').val) :
    shapeCast t x h j = shapeCast t' x h' j' := by
  unfold shapeCast
  refine congrArg x ?_
  exact Shape.reshapeEquiv_eq_of_rowMajor _ ((Shape.rowMajor_reshapeEquiv _ j').trans e.symm)

/-- The input cut into slabs against the input flattened to rows. -/
theorem flat_cast (a : S4.Idx → α) (h3 : S4.ShapeCasts S3) (h2 : S4.ShapeCasts SX) (n : Fin 32) (c : Fin 512) (k : Fin 1024) :
    shapeCast S3 a h3 (ix3 n c k) = shapeCast SX a h2 (ix2 (slabRow n c) k) :=
  shapeCast_eq_shapeCast a h3 h2 _ _ (by
    rw [Shape.rowMajor_val_three, Shape.rowMajor_val_two]
    rfl)

/-- The read-out given slab by slab reshapes as the read-out given row by row. -/
theorem out_cast (G : S3.Idx → α) (O : SX.Idx → α) (h : S3.ShapeCasts S4) (h' : SX.ShapeCasts S4)
    (hG : ∀ (n : Fin 32) (c : Fin 512) (k : Fin 1024), G (ix3 n c k) = O (ix2 (slabRow n c) k)) :
    shapeCast S4 G h = shapeCast S4 O h' := by
  refine shapeCast_congr G O h h' fun i i' e => ?_
  rw [Shape.rowMajor_val_three, Shape.rowMajor_val_two] at e
  obtain ⟨n, c, k, rfl⟩ : ∃ (n : Fin 32) (c : Fin 512) (k : Fin 1024), i = ix3 n c k := ⟨i 0, i 1, i 2, eq_ix3 i⟩
  obtain ⟨r, k', rfl⟩ : ∃ (r : Fin 16384) (k' : Fin 1024), i' = ix2 r k' := ⟨i' 0, i' 1, eq_ix2 i'⟩
  have e' : (n.val * 512 + c.val) * 1024 + k.val = r.val * 1024 + k'.val := e
  have hk : k.val < 1024 := k.isLt
  have hk' : k'.val < 1024 := k'.isLt
  have hr : r = slabRow n c := Fin.ext (by show r.val = n.val * 512 + c.val; omega)
  have hkk : k' = k := Fin.ext (by omega)
  rw [hG, hr, hkk]

/-- The weights given slab by slab, flattened, are the weights given row by row. -/
theorem att_cast (G : S3a.Idx → α) (A : SA.Idx → α) (h : S3a.ShapeCasts SA)
    (hG : ∀ (n : Fin 32) (c j : Fin 512), G (ix3 n c j) = A (ix2 (slabRow n c) j)) :
    shapeCast SA G h = A := by
  funext i
  obtain ⟨r, j, rfl⟩ : ∃ (r : Fin 16384) (j : Fin 512), i = ix2 r j := ⟨i 0, i 1, eq_ix2 i⟩
  have hr : r.val < 16384 := r.isLt
  have e : r = slabRow ⟨r.val / 512, by omega⟩ ⟨r.val % 512, by omega⟩ := Fin.ext (by show r.val = r.val / 512 * 512 + r.val % 512; omega)
  rw [Cert.LibFlatten.shapeCast_abc_Rc_apply G h ⟨r.val / 512, by omega⟩ ⟨r.val % 512, by omega⟩ j r (by show r.val = r.val / 512 * 512 + r.val % 512; omega),
    hG, ← e]

/-- The means spread along 1024 lanes reshape to the means spread over a 32 × 32 plane. -/
theorem avg_cast (G : S3.Idx → α) (A : SAvg.Idx → α) (h : S3.ShapeCasts S4)
    (hG : ∀ (n : Fin 32) (j : Fin 512) (k : Fin 1024), G (ix3 n j k) = A (ix2 n j)) :
    shapeCast S4 G h = fun i => A (ix2 (i 0) (i 1)) := by
  funext i
  obtain ⟨n, j, p, q, rfl⟩ : ∃ (n : Fin 32) (j : Fin 512) (p q : Fin 32), i = ix4 n j p q := ⟨i 0, i 1, i 2, i 3, eq_ix4 i⟩
  have hp : p.val < 32 := p.isLt
  have hq : q.val < 32 := q.isLt
  refine (shapeCast_apply G h (ix4 n j p q) (ix3 n j ⟨p.val * 32 + q.val, by omega⟩) ?_).trans (hG n j _)
  rw [Shape.rowMajor_val_three, Shape.rowMajor_val_four]
  show (n.val * 512 + j.val) * 1024 + (p.val * 32 + q.val) = ((n.val * 512 + j.val) * 32 + p.val) * 32 + q.val
  omega

end Cert.Addressing.Reshapes

end
-- ==== Proof.RefValue.lean ====
/-
  The reference's results, read index by index.

  Row r of the flattened input is X(r, ·); bank row j is B(j, ·). Stage by stage: the row's sum of squares, its
  floored length, the unit-length row, the similarity to each bank row (a contraction over the 1024 entries), the
  largest similarity (a fold of max from the bottom element), the softmax numerators and their sum, the shrunk
  weights and their floored sum, and the attention weights. The read-out contracts the weights with the bank, and
  the channel average sums the weights of the 512 rows n·512 + c of sample n and divides by 512.
-/
import proofs.«136410_j73375221285179_2_alg».proof.Proof.Spec
import proofs.«136410_j73375221285179_2_alg».proof.Proof.Gen.ReferenceIdeal.Read
import Idealize.ShloMosaic.Lib.ValueIdx
import Idealize.ShloMosaic.PureOps.Reduce
import Idealize.ShloMosaic.PureOps.Ideal.Laws

noncomputable section

open scoped BigOperators

namespace Cert.Addressing.RefValue

open Idealize.ShloMosaic Idealize.ShloMosaic.ValueIdx Cert.ReferenceIdeal Cert.ReferenceIdeal.Read Cert.Addressing

variable (x0 : (⟨S32x512x32x32, .f32⟩ : BufTy).Contents (Elt Ideal))
  (x1 x2 : (⟨S512x1024, .f32⟩ : BufTy).Contents (Elt Ideal))
  (x3 : (⟨S512, .f32⟩ : BufTy).Contents (Elt Ideal))
  (x4 : (⟨S1024x512, .f32⟩ : BufTy).Contents (Elt Ideal))
  (x5 : (⟨S1024, .f32⟩ : BufTy).Contents (Elt Ideal))

/-! ## The unit-length row -/

theorem idx_sumsq (r : Fin 16384) (k : Fin 1024) : idx_main_call0_v1 (ix1 r) k = ix2 r k :=
  funext fun a => Fin.ext (by match a with | ⟨0, _⟩ => rfl | ⟨1, _⟩ => rfl)

/-- The row's sum of squares. -/
theorem sumsq_at (r : Fin 16384) :
    val_main_call0_v1 (F := Ideal) x0 (ix1 r)
      = ∑ k : Fin 1024, val_main_v0 (F := Ideal) x0 (ix2 r k) * val_main_v0 (F := Ideal) x0 (ix2 r k) := by
  rw [val_main_call0_v1_apply, val_main_call0_cst_apply, Ideal.ofBits_def, Ideal.ofBits_zero_f32, zero_add]
  refine Finset.sum_congr rfl fun k _ => ?_
  rw [idx_sumsq]
  rfl

theorem idx_den (r : Fin 16384) (k : Fin 1024) : idx_main_call0_v2 (idx_main_v4 (ix2 r k)) = ix1 r :=
  funext fun a => Fin.ext (by match a with | ⟨0, _⟩ => rfl)

/-- The row's floored length, the same along the row. -/
theorem den_at (r : Fin 16384) (k : Fin 1024) :
    val_main_v4 (F := Ideal) x0 (ix2 r k) = rowDen (rowOf (val_main_v0 (F := Ideal) x0) r) := by
  rw [val_main_v4_apply, val_main_v3_apply, val_main_v1_apply, val_main_call0_v2_apply, idx_den, sumsq_at,
    val_main_v2_apply, val_main_cst_apply]
  rfl

/-- The unit-length row. -/
theorem unit_at (r : Fin 16384) (k : Fin 1024) :
    val_main_v5 (F := Ideal) x0 (ix2 r k)
      = Ideal.div (val_main_v0 (F := Ideal) x0 (ix2 r k)) (rowDen (rowOf (val_main_v0 (F := Ideal) x0) r)) := by
  rw [val_main_v5_apply, den_at]
  rfl

/-! ## The similarities -/

theorem idx_sim_l (r : Fin 16384) (j : Fin 512) (k : Fin 1024) : lidx_main_v24 (ix2 r j) k = ix2 r k :=
  funext fun a => Fin.ext (by match a with | ⟨0, _⟩ => rfl | ⟨1, _⟩ => rfl)

theorem idx_sim_r (r : Fin 16384) (j : Fin 512) (k : Fin 1024) :
    idx_main_v23 (ridx_main_v24 (ix2 r j) k) = ix2 j k :=
  funext fun a => Fin.ext (by match a with | ⟨0, _⟩ => rfl | ⟨1, _⟩ => rfl)

/-- The similarity of row r to bank row j: the contraction runs over the row's entries against the transposed bank. -/
theorem sim_at (r : Fin 16384) (j : Fin 512) :
    val_main_v24 (F := Ideal) x0 x1 x2 x3 x4 x5 (ix2 r j)
      = rowSim (rowOf (val_main_v0 (F := Ideal) x0) r) (bank (val_main_v22 (F := Ideal) x1 x2 x3 x4 x5)) j := by
  rw [val_main_v24_apply]
  unfold rowSim
  refine Finset.sum_congr rfl fun k _ => ?_
  rw [idx_sim_l, unit_at, val_main_v23_apply, idx_sim_r]
  rfl

/-! ## The largest similarity -/

/-- A host maximum over the second axis of an [a, b] array, read at row p, is the fold of max from the initial
    value's element over the entries (p, k): max commutes and associates, so the order of the visit is immaterial. -/
theorem hostRowMax_apply {a b : ℕ} (src : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := .f32)) src init h' hu (ix1 p)
      = (Finset.univ : Finset (Fin b)).fold max (init (Shape.Idx.first hu)) (fun k => src (ix2 p k)) := by
  refine (Host.reduce_eq_fold_single (FloatOps.maximumf (F := Ideal) (φ := .f32)) src init h' h hu (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg (fun f => (Finset.univ : Finset (Fin b)).fold max (init (Shape.Idx.first hu)) f) hf

/-- The largest similarity of row r: the fold starts from the pattern of −∞, the bottom element, and the further
    maximum with that pattern changes nothing. -/
theorem max_at (r : Fin 16384) :
    val_main_v27 (F := Ideal) x0 x1 x2 x3 x4 x5 (ix1 r)
      = rowMax (rowSim (rowOf (val_main_v0 (F := Ideal) x0) r) (bank (val_main_v22 (F := Ideal) x1 x2 x3 x4 x5))) := by
  have hfold : val_main_v25 (F := Ideal) x0 x1 x2 x3 x4 x5 (ix1 r)
      = (Finset.univ : Finset (Fin 512)).fold max (⊥ : EReal)
          (fun k => val_main_v24 (F := Ideal) x0 x1 x2 x3 x4 x5 (ix2 r k)) := by
    unfold val_main_v25
    generalize val_main_v24 (F := Ideal) x0 x1 x2 x3 x4 x5 = y
    refine (hostRowMax_apply y _ _ (by decide) _ r).trans ?_
    exact congrArg (fun i => (Finset.univ : Finset (Fin 512)).fold max i fun k => y (ix2 r k)) ofBits_neg_inf
  rw [val_main_v27_apply, val_main_v26_apply, val_main_cst_2_apply, hfold]
  have hs : (fun k => val_main_v24 (F := Ideal) x0 x1 x2 x3 x4 x5 (ix2 r k))
      = rowSim (rowOf (val_main_v0 (F := Ideal) x0) r) (bank (val_main_v22 (F := Ideal) x1 x2 x3 x4 x5)) :=
    funext fun k => sim_at x0 x1 x2 x3 x4 x5 r k
  rw [hs]
  show max (Ideal.ofBits .f32 0xFF800000#32) _ = _
  rw [ofBits_neg_inf, max_eq_right bot_le]
  rfl

/-! ## The softmax numerators and their sum -/

theorem idx_rowmax (r : Fin 16384) (j : Fin 512) : idx_main_v28 (idx_main_v29 (ix2 r j)) = ix1 r :=
  funext fun a => Fin.ext (by match a with | ⟨0, _⟩ => rfl)

/-- The softmax numerator at (r, j). -/
theorem exp_at (r : Fin 16384) (j : Fin 512) :
    val_main_v31 (F := Ideal) x0 x1 x2 x3 x4 x5 (ix2 r j)
      = rowExp (rowSim (rowOf (val_main_v0 (F := Ideal) x0) r) (bank (val_main_v22 (F := Ideal) x1 x2 x3 x4 x5))) j := by
  rw [val_main_v31_apply, val_main_v30_apply, val_main_v29_apply, val_main_v28_apply, idx_rowmax, max_at, sim_at]
  rfl

theorem idx_expsum (r : Fin 16384) (j : Fin 512) : idx_main_v33 (idx_main_v34 (ix2 r j)) = ix1 r :=
  funext fun a => Fin.ext (by match a with | ⟨0, _⟩ => rfl)

theorem idx_expsum_k (r : Fin 16384) (k : Fin 512) : idx_main_v32 (ix1 r) k = ix2 r k :=
  funext fun a => Fin.ext (by match a with | ⟨0, _⟩ => rfl | ⟨1, _⟩ => rfl)

/-- The softmax denominator of row r, the same along the row. -/
theorem expsum_at (r : Fin 16384) (j : Fin 512) :
    val_main_v34 (F := Ideal) x0 x1 x2 x3 x4 x5 (ix2 r j)
      = ∑ i : Fin 512,
          rowExp (rowSim (rowOf (val_main_v0 (F := Ideal) x0) r) (bank (val_main_v22 (F := Ideal) x1 x2 x3 x4 x5))) i := by
  rw [val_main_v34_apply, val_main_v33_apply, idx_expsum, val_main_v32_apply, val_main_cst_3_apply, Ideal.ofBits_def,
    Ideal.ofBits_zero_f32, zero_add]
  refine Finset.sum_congr rfl fun k _ => ?_
  rw [idx_expsum_k, exp_at]

/-! ## The shrunk weights, their floored sum, the attention weights -/

/-- Softmax, then the hard shrink, at (r, j). -/
theorem shrunk_at (r : Fin 16384) (j : Fin 512) :
    val_main_v38 (F := Ideal) x0 x1 x2 x3 x4 x5 (ix2 r j)
      = shrunk Ideal.div
          (rowSim (rowOf (val_main_v0 (F := Ideal) x0) r) (bank (val_main_v22 (F := Ideal) x1 x2 x3 x4 x5))) j := by
  rw [val_main_v38_apply, val_main_v37_apply, val_main_v35_apply, exp_at, expsum_at, val_main_v36_apply,
    val_main_cst_4_apply, val_main_call4_v0_apply, val_main_call4_cst_apply, Ideal.ofBits_def, Ideal.ofBits_def,
    Ideal.ofBits_zero_f32]
  rfl

theorem idx_shrsum (r : Fin 16384) (j : Fin 512) : idx_main_v40 (idx_main_v43 (ix2 r j)) = ix1 r :=
  funext fun a => Fin.ext (by match a with | ⟨0, _⟩ => rfl)

theorem idx_shrsum_k (r : Fin 16384) (k : Fin 512) : idx_main_v39 (ix1 r) k = ix2 r k :=
  funext fun a => Fin.ext (by match a with | ⟨0, _⟩ => rfl | ⟨1, _⟩ => rfl)

/-- The floored sum of the shrunk weights of row r, the same along the row. -/
theorem shrsum_at (r : Fin 16384) (j : Fin 512) :
    val_main_v43 (F := Ideal) x0 x1 x2 x3 x4 x5 (ix2 r j)
      = max (∑ i : Fin 512, shrunk Ideal.div
          (rowSim (rowOf (val_main_v0 (F := Ideal) x0) r) (bank (val_main_v22 (F := Ideal) x1 x2 x3 x4 x5))) i) eps := by
  rw [val_main_v43_apply, val_main_v42_apply, val_main_v40_apply, idx_shrsum, val_main_v39_apply, val_main_cst_5_apply,
    Ideal.ofBits_def, Ideal.ofBits_zero_f32, zero_add, val_main_v41_apply, val_main_cst_6_apply]
  have hsum : (∑ k : Fin 512, val_main_v38 (F := Ideal) x0 x1 x2 x3 x4 x5 (idx_main_v39 (ix1 r) k))
      = ∑ i : Fin 512, shrunk Ideal.div
          (rowSim (rowOf (val_main_v0 (F := Ideal) x0) r) (bank (val_main_v22 (F := Ideal) x1 x2 x3 x4 x5))) i :=
    Finset.sum_congr rfl fun k _ => by rw [idx_shrsum_k, shrunk_at]
  rw [hsum]
  rfl

/-- The attention weight at (r, j). -/
theorem att_at (r : Fin 16384) (j : Fin 512) :
    val_main_v44 (F := Ideal) x0 x1 x2 x3 x4 x5 (ix2 r j)
      = address Ideal.div
          (rowSim (rowOf (val_main_v0 (F := Ideal) x0) r) (bank (val_main_v22 (F := Ideal) x1 x2 x3 x4 x5))) j := by
  rw [val_main_v44_apply, shrunk_at, shrsum_at]
  rfl

/-- The attention weights are the specification's. -/
theorem att_eq :
    val_main_v44 (F := Ideal) x0 x1 x2 x3 x4 x5
      = attArr (val_main_v0 (F := Ideal) x0) (val_main_v22 (F := Ideal) x1 x2 x3 x4 x5) := by
  funext i
  obtain ⟨r, j, rfl⟩ : ∃ (r : Fin 16384) (j : Fin 512), i = ix2 r j := ⟨i 0, i 1, eq_ix2 i⟩
  exact att_at x0 x1 x2 x3 x4 x5 r j

/-! ## The read-out -/

theorem idx_out_l (r : Fin 16384) (k : Fin 1024) (j : Fin 512) : lidx_main_v45 (ix2 r k) j = ix2 r j :=
  funext fun a => Fin.ext (by match a with | ⟨0, _⟩ => rfl | ⟨1, _⟩ => rfl)

theorem idx_out_r (r : Fin 16384) (k : Fin 1024) (j : Fin 512) : ridx_main_v45 (ix2 r k) j = ix2 j k :=
  funext fun a => Fin.ext (by match a with | ⟨0, _⟩ => rfl | ⟨1, _⟩ => rfl)

/-- The read-out contracts the attention weights with the bank. -/
theorem out_eq :
    val_main_v45 (F := Ideal) x0 x1 x2 x3 x4 x5
      = outArr (val_main_v0 (F := Ideal) x0) (val_main_v22 (F := Ideal) x1 x2 x3 x4 x5) := by
  funext i
  obtain ⟨r, k, rfl⟩ : ∃ (r : Fin 16384) (k : Fin 1024), i = ix2 r k := ⟨i 0, i 1, eq_ix2 i⟩
  rw [val_main_v45_apply, att_eq]
  show _ = ∑ j : Fin 512, attArr (val_main_v0 (F := Ideal) x0) (val_main_v22 (F := Ideal) x1 x2 x3 x4 x5) (ix2 r j)
      * val_main_v22 (F := Ideal) x1 x2 x3 x4 x5 (ix2 j k)
  refine Finset.sum_congr rfl fun j _ => ?_
  rw [idx_out_l, idx_out_r]

/-! ## The channel average -/

theorem idx_avg (n : Fin 32) (j : Fin 512) (h w : Fin 32) : idx_main_v51 (idx_main_v52 (ix4 n j h w)) = ix2 n j :=
  funext fun a => Fin.ext (by match a with | ⟨0, _⟩ => rfl | ⟨1, _⟩ => rfl)

/-- Entry (n, c, j) of the weights reshaped to 32 slabs of 512 rows is entry (n·512 + c, j) of the weights. -/
theorem idx_avg_k (n : Fin 32) (j : Fin 512) (c : Fin 512) :
    idx_main_v47 (idx_main_v48 (ix2 n j) c) = ix2 (slabRow n c) j :=
  funext fun a => Fin.ext (by
    have hj := j.isLt
    match a with
    | ⟨0, _⟩ => show ((n.val * 512 + c.val) * 512 + j.val) / 512 = n.val * 512 + c.val; omega
    | ⟨1, _⟩ => show ((n.val * 512 + c.val) * 512 + j.val) % 512 = j.val; omega)

/-- The channel average, broadcast over the 32 × 32 positions. -/
theorem avg_eq :
    val_main_v52 (F := Ideal) x0 x1 x2 x3 x4 x5
      = fun i => avgArr (val_main_v0 (F := Ideal) x0) (val_main_v22 (F := Ideal) x1 x2 x3 x4 x5) (ix2 (i 0) (i 1)) := by
  funext i
  obtain ⟨n, j, h, w, rfl⟩ : ∃ (n : Fin 32) (j : Fin 512) (h w : Fin 32), i = ix4 n j h w :=
    ⟨i 0, i 1, i 2, i 3, eq_ix4 i⟩
  rw [val_main_v52_apply, val_main_v51_apply, idx_avg, val_main_v50_apply, val_main_v48_apply, val_main_cst_7_apply,
    Ideal.ofBits_def, Ideal.ofBits_zero_f32, zero_add, val_main_v49_apply, val_main_cst_8_apply]
  have hsum : (∑ c : Fin 512, val_main_v47 (F := Ideal) x0 x1 x2 x3 x4 x5 (idx_main_v48 (ix2 n j) c))
      = ∑ c : Fin 512, attArr (val_main_v0 (F := Ideal) x0) (val_main_v22 (F := Ideal) x1 x2 x3 x4 x5)
          (ix2 (slabRow n c) j) :=
    Finset.sum_congr rfl fun c _ => by rw [val_main_v47_apply, idx_avg_k, att_eq]
  rw [hsum]
  rfl

end Cert.Addressing.RefValue

end
-- ==== Proof.RealBank.lean ====
/-
  Every entry of the normalised memory bank, and of the flattened input, is a real number when the arguments are.

  The bank is relu(relu(memory · w1ᵀ + b1) · w2ᵀ + b2) with every row divided by max(√(Σ row²), ε).
  Sums and products of reals are reals; the maximum of two reals is one of them; the root of a real floored by
  ε > 0 is a nonzero real; a real divided by a nonzero real is a real. Transposes, broadcasts and reshapes only
  re-index, so they carry "every entry is real" from their operand to their result. One lemma per operation,
  in the order the operations are computed.
-/
import proofs.«136410_j73375221285179_2_alg».proof.Proof.Spec
import proofs.«136410_j73375221285179_2_alg».proof.Proof.Gen.ReferenceIdeal.Read

noncomputable section

namespace Cert.Addressing.RealBank

open Idealize.ShloMosaic Idealize.SL.Sem Cert.ReferenceIdeal Cert.ReferenceIdeal.Read Cert.Addressing

variable (x0 : (⟨S32x512x32x32, .f32⟩ : BufTy).Contents (Elt Ideal))
  (x1 x2 : (⟨S512x1024, .f32⟩ : BufTy).Contents (Elt Ideal))
  (x3 : (⟨S512, .f32⟩ : BufTy).Contents (Elt Ideal))
  (x4 : (⟨S1024x512, .f32⟩ : BufTy).Contents (Elt Ideal))
  (x5 : (⟨S1024, .f32⟩ : BufTy).Contents (Elt Ideal))

/-- The all-zero pattern denotes the real number 0. -/
theorem zero_pattern_real : IsReal (FloatOps.ofBits (F := Ideal) .f32 0x00000000#32) := by
  rw [Ideal.ofBits_def, Ideal.ofBits_zero_f32]; exact IsReal.zero

/-! ## The first layer: relu(memory · w1ᵀ + b1) -/

/-- w1 transposed: a re-indexing of w1. -/
theorem v6_real (h2 : ∀ i, IsReal (x2 i)) : ∀ i, IsReal (val_main_v6 (F := Ideal) x2 i) :=
  fun i => by rw [val_main_v6_apply]; exact h2 _

/-- memory · w1ᵀ: each entry a finite sum of products of reals. -/
theorem v7_real (h1 : ∀ i, IsReal (x1 i)) (h2 : ∀ i, IsReal (x2 i)) : ∀ i, IsReal (val_main_v7 (F := Ideal) x1 x2 i) :=
  fun i => by rw [val_main_v7_apply]; exact IsReal.sum _ _ fun k _ => (h1 _).mul (v6_real x2 h2 _)

/-- b1 as a row. -/
theorem v8_real (h3 : ∀ i, IsReal (x3 i)) : ∀ i, IsReal (val_main_v8 (F := Ideal) x3 i) :=
  fun i => by rw [val_main_v8_apply]; exact h3 _

/-- b1 repeated down the rows. -/
theorem v9_real (h3 : ∀ i, IsReal (x3 i)) : ∀ i, IsReal (val_main_v9 (F := Ideal) x3 i) :=
  fun i => by rw [val_main_v9_apply]; exact v8_real x3 h3 _

/-- memory · w1ᵀ + b1. -/
theorem v10_real (h1 : ∀ i, IsReal (x1 i)) (h2 : ∀ i, IsReal (x2 i)) (h3 : ∀ i, IsReal (x3 i)) :
    ∀ i, IsReal (val_main_v10 (F := Ideal) x1 x2 x3 i) :=
  fun i => by
    rw [val_main_v10_apply]; simp only [Ideal.addf_def]
    exact (v7_real x1 x2 h1 h2 i).add (v9_real x3 h3 i)

/-- The zero the first relu compares with. -/
theorem call1_v0_real : ∀ i, IsReal (val_main_call1_v0 (F := Ideal) i) :=
  fun i => by rw [val_main_call1_v0_apply, val_main_call1_cst_apply]; exact zero_pattern_real

/-- relu(memory · w1ᵀ + b1): the maximum of a real and 0. -/
theorem v11_real (h1 : ∀ i, IsReal (x1 i)) (h2 : ∀ i, IsReal (x2 i)) (h3 : ∀ i, IsReal (x3 i)) :
    ∀ i, IsReal (val_main_v11 (F := Ideal) x1 x2 x3 i) :=
  fun i => by
    rw [val_main_v11_apply]; simp only [Ideal.maximumf_def]
    exact (v10_real x1 x2 x3 h1 h2 h3 i).max (call1_v0_real i)

/-! ## The second layer: relu(hidden · w2ᵀ + b2) -/

/-- w2 transposed. -/
theorem v12_real (h4 : ∀ i, IsReal (x4 i)) : ∀ i, IsReal (val_main_v12 (F := Ideal) x4 i) :=
  fun i => by rw [val_main_v12_apply]; exact h4 _

/-- hidden · w2ᵀ. -/
theorem v13_real (h1 : ∀ i, IsReal (x1 i)) (h2 : ∀ i, IsReal (x2 i)) (h3 : ∀ i, IsReal (x3 i)) (h4 : ∀ i, IsReal (x4 i)) :
    ∀ i, IsReal (val_main_v13 (F := Ideal) x1 x2 x3 x4 i) :=
  fun i => by
    rw [val_main_v13_apply]
    exact IsReal.sum _ _ fun k _ => (v11_real x1 x2 x3 h1 h2 h3 _).mul (v12_real x4 h4 _)

/-- b2 as a row. -/
theorem v14_real (h5 : ∀ i, IsReal (x5 i)) : ∀ i, IsReal (val_main_v14 (F := Ideal) x5 i) :=
  fun i => by rw [val_main_v14_apply]; exact h5 _

/-- b2 repeated down the rows. -/
theorem v15_real (h5 : ∀ i, IsReal (x5 i)) : ∀ i, IsReal (val_main_v15 (F := Ideal) x5 i) :=
  fun i => by rw [val_main_v15_apply]; exact v14_real x5 h5 _

/-- hidden · w2ᵀ + b2. -/
theorem v16_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_v16 (F := Ideal) x1 x2 x3 x4 x5 i) :=
  fun i => by
    rw [val_main_v16_apply]; simp only [Ideal.addf_def]
    exact (v13_real x1 x2 x3 x4 h1 h2 h3 h4 i).add (v15_real x5 h5 i)

/-- The zero the second relu compares with. -/
theorem call2_v0_real : ∀ i, IsReal (val_main_call2_v0 (F := Ideal) i) :=
  fun i => by rw [val_main_call2_v0_apply, val_main_call2_cst_apply]; exact zero_pattern_real

/-- The bank before it is normalised. -/
theorem v17_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_v17 (F := Ideal) x1 x2 x3 x4 x5 i) :=
  fun i => by
    rw [val_main_v17_apply]; simp only [Ideal.maximumf_def]
    exact (v16_real x1 x2 x3 x4 x5 h1 h2 h3 h4 h5 i).max (call2_v0_real i)

/-! ## The rows' lengths, floored -/

/-- The squares. -/
theorem call3_v0_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_call3_v0 (F := Ideal) x1 x2 x3 x4 x5 i) :=
  fun i => by
    rw [val_main_call3_v0_apply]; simp only [Ideal.mulf_def]
    exact (v17_real x1 x2 x3 x4 x5 h1 h2 h3 h4 h5 i).mul (v17_real x1 x2 x3 x4 x5 h1 h2 h3 h4 h5 i)

/-- Each row's sum of squares: 0 plus a finite sum of reals. -/
theorem call3_v1_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_call3_v1 (F := Ideal) x1 x2 x3 x4 x5 i) :=
  fun i => by
    rw [val_main_call3_v1_apply, val_main_call3_cst_apply]
    exact zero_pattern_real.add (IsReal.sum _ _ fun k _ => call3_v0_real x1 x2 x3 x4 x5 h1 h2 h3 h4 h5 _)

/-- The sums of squares as a column. -/
theorem call3_v2_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_call3_v2 (F := Ideal) x1 x2 x3 x4 x5 i) :=
  fun i => by rw [val_main_call3_v2_apply]; exact call3_v1_real x1 x2 x3 x4 x5 h1 h2 h3 h4 h5 _

/-- max(√(Σ row²), ε): a real, and not zero. -/
theorem v20_real (h1 : ∀ i, IsReal (x1 i)) (h2 : ∀ i, IsReal (x2 i)) (h3 : ∀ i, IsReal (x3 i)) (h4 : ∀ i, IsReal (x4 i))
    (h5 : ∀ i, IsReal (x5 i)) :
    ∀ i, IsReal (val_main_v20 (F := Ideal) x1 x2 x3 x4 x5 i) ∧ val_main_v20 (F := Ideal) x1 x2 x3 x4 x5 i ≠ 0 :=
  fun i => by
    rw [val_main_v20_apply, val_main_v18_apply, val_main_v19_apply, val_main_cst_0_apply]
    simp only [Ideal.maximumf_def, Ideal.hostUnary_sqrt_def, Ideal.ofBits_def]
    exact sqrt_floor (call3_v2_real x1 x2 x3 x4 x5 h1 h2 h3 h4 h5 i)

/-- The floored lengths repeated along the rows. -/
theorem v21_real (h1 : ∀ i, IsReal (x1 i)) (h2 : ∀ i, IsReal (x2 i)) (h3 : ∀ i, IsReal (x3 i)) (h4 : ∀ i, IsReal (x4 i))
    (h5 : ∀ i, IsReal (x5 i)) :
    ∀ i, IsReal (val_main_v21 (F := Ideal) x1 x2 x3 x4 x5 i) ∧ val_main_v21 (F := Ideal) x1 x2 x3 x4 x5 i ≠ 0 :=
  fun i => by rw [val_main_v21_apply]; exact v20_real x1 x2 x3 x4 x5 h1 h2 h3 h4 h5 _

/-! ## The results -/

/-- Every entry of the normalised bank is a real number: a real divided by a nonzero real. -/
theorem bank_real (h1 : ∀ i, IsReal (x1 i)) (h2 : ∀ i, IsReal (x2 i)) (h3 : ∀ i, IsReal (x3 i)) (h4 : ∀ i, IsReal (x4 i))
    (h5 : ∀ i, IsReal (x5 i)) : ∀ i, IsReal (val_main_v22 (F := Ideal) x1 x2 x3 x4 x5 i) :=
  fun i => by
    rw [val_main_v22_apply]; simp only [Ideal.hostDivf_def]
    exact (v17_real x1 x2 x3 x4 x5 h1 h2 h3 h4 h5 i).div (v21_real x1 x2 x3 x4 x5 h1 h2 h3 h4 h5 i).1
      (v21_real x1 x2 x3 x4 x5 h1 h2 h3 h4 h5 i).2

/-- Every entry of the flattened input is an entry of the input. -/
theorem flat_real (h0 : ∀ i, IsReal (x0 i)) : ∀ i, IsReal (val_main_v0 (F := Ideal) x0 i) :=
  fun i => by rw [val_main_v0_apply]; exact h0 _

end Cert.Addressing.RealBank

end
-- ==== Proof.FiniteArgs.lean ====
/-
  From the certificate's precondition to "every entry of every argument array is a real number".

  The precondition is, for each of the six argument arrays x, the conjunction over all entries of
  |x[i]| < +∞, the six conjunctions and-ed together, stated as "the result is the one-bit word 1".
  At the ideal instance a float is an extended real, |x| is max x (-x), the pattern 0x7F800000 denotes +∞
  and the comparison is the order's. An extended real whose absolute value is below +∞ is neither +∞ nor -∞
  (|±∞| = +∞), so it is a real number.

  The road: a conjunction of one-bit words is 1 iff each is; a reduction by "and" over all axes that is 1 had a 1
  at every entry; a one-bit comparison that is 1 holds; then the three cases of an extended real.
-/
import proofs.«136410_j73375221285179_2_alg».proof.Defs
import proofs.«136410_j73375221285179_2_alg».proof.Proof.Gen.Pre_finite_inputs
import Idealize.ShloMosaic.Lib.ValueIdx
import Idealize.ShloMosaic.Lib.ReduceAll

noncomputable section

namespace Cert.Addressing.FiniteArgs

open Idealize.ShloMosaic Idealize.SL.Sem

/-- The rank-0 shape has exactly one index: there is no axis to give a coordinate on. -/
instance scalarIdx_subsingleton : Subsingleton (⟨0, ![]⟩ : Shape).Idx := ⟨fun _ _ => funext fun d => d.elim0⟩

/-- A truth value, as a one-bit word, is 1 exactly when it is true. -/
theorem ofBool_eq_one (b : Bool) : BitVec.ofBool b = 1#1 ↔ b = true := by cases b <;> decide

/-- The single-precision pattern with exponent all ones, significand zero and sign clear denotes +∞. -/
theorem inf_bits : Ideal.ofBits .f32 0x7F800000#32 = (⊤ : EReal) := by
  simp [Ideal.ofBits, Ideal.ieee]

/-- An extended real whose absolute value max x (-x) is below +∞ is a real number:
    at x = -∞ the maximum is -(-∞) = +∞, at x = +∞ it is x itself, and neither is below +∞. -/
theorem real_of_abs_lt_top (x : EReal) (h : max x (-x) < ⊤) : ∃ r : ℝ, x = (r : EReal) := by
  induction x using EReal.rec with
  | bot => simp at h
  | coe r => exact ⟨r, rfl⟩
  | top => simp at h

/-- One array of an arbitrary shape s: if "and" over all entries of (|a[i]| < +∞), reduced over every axis
    down to one word, is 1, then every entry of a is a real number. -/
theorem real_of_all {s : Shape} {axes : List (Fin s.rank)} (a : FVec Ideal s .f32)
    (hb : (⟨0, ![]⟩ : Shape).BroadcastsInDim s (![] : Fin 0 → Fin s.rank))
    (hred : s.ReducesTo axes (⟨0, ![]⟩ : Shape)) (hpos : 0 < (⟨0, ![]⟩ : Shape).numel)
    (h : Host.reduce IntOp.andi
          (cmpf .olt (Host.absf a) (broadcastInDim s ![] hb (constant (⟨0, ![]⟩ : Shape) .f32 0x7F800000#32)))
          (constantI (⟨0, ![]⟩ : Shape) 1 1#1) hred hpos ValueIdx.ix0 = 1#1) :
    ∀ i, ∃ r : ℝ, a i = (r : EReal) := by
  intro i
  -- the reduction is 1, so the comparison at entry i is 1
  have e := Host.reduce_andi_all _ _ hred hpos _ h i
  -- that comparison is max (a i) (-(a i)) < (what the pattern denotes), as a one-bit word
  have e' : Ideal.cmp .olt (max (a i) (-(a i))) (Ideal.ofBits .f32 0x7F800000#32) = 1#1 := e
  rw [inf_bits] at e'
  have e'' : BitVec.ofBool (decide (max (a i) (-(a i)) < ⊤)) = 1#1 := e'
  exact real_of_abs_lt_top _ (of_decide_eq_true ((ofBool_eq_one _).1 e''))

open Cert.Pre_finite_inputs in
/-- The printed predicate is 1 on six arrays only if every entry of each of them is a real number. -/
theorem real_of_fn [hPre_finite_inputs : Cert.Pre_finite_inputs.Facts]
    (a0 : FVec Ideal S32x512x32x32 .f32) (a1 a2 : FVec Ideal S512x1024 .f32) (a3 : FVec Ideal S512 .f32)
    (a4 : FVec Ideal S1024x512 .f32) (a5 : FVec Ideal S1024 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  -- the predicate's value at its one index
  have e := congrFun h ValueIdx.ix0
  dsimp only [Cert.Pre_finite_inputs.fn, Cert.Pre_finite_inputs.fn_part1] at e
  -- a conjunction of one-bit words is 1 iff each of them is: six reductions, each 1
  simp only [andi, IntOp.andi_eq_one] at e
  obtain ⟨⟨⟨⟨⟨h0, h1⟩, h2⟩, h3⟩, h4⟩, h5⟩ := e
  exact ⟨real_of_all a0 _ _ _ h0, real_of_all a1 _ _ _ h1, real_of_all a2 _ _ _ h2,
    real_of_all a3 _ _ _ h3, real_of_all a4 _ _ _ h4, real_of_all a5 _ _ _ h5⟩

/-- Under the certificate's precondition, on every device, every entry of each of the six argument arrays the
    memory holds is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) :=
  real_of_fn _ _ _ _ _ _ (hpre c)

end Cert.Addressing.FiniteArgs

end
-- ==== Proof.KernelValue.lean ====
/-
  The kernel program computes the reference's five results.

  With `X` the input flattened to rows and `B` the normalised bank (both as the reference computes them, and as
  the kernel program's host lines compute them), the region's three arrays are the specification's read-out, channel
  means and attention weights slab by slab; reshaped, they are the reference's read-out, broadcast channel means and
  attention weights. The precondition enters once: finite inputs make `X` and `B` real, which is what lets the
  products with reciprocals in the kernel body agree with the reference's quotients.
-/
import proofs.«136410_j73375221285179_2_alg».proof.Proof.KernelRun
import proofs.«136410_j73375221285179_2_alg».proof.Proof.KernelArrays
import proofs.«136410_j73375221285179_2_alg».proof.Proof.Reshapes
import proofs.«136410_j73375221285179_2_alg».proof.Proof.RefValue
import proofs.«136410_j73375221285179_2_alg».proof.Proof.RealBank
import proofs.«136410_j73375221285179_2_alg».proof.Proof.FiniteArgs

noncomputable section

namespace Cert.Addressing.KernelValue

open Cert.KernelIdeal Cert.KernelIdeal.Gen Idealize.ShloMosaic Idealize.ShloMosaic.TcCoe Idealize.SL.Sem
open Idealize.ShloMosaic.ValueIdx Cert.Addressing

variable (m : (ℓ : Loc nD τ sig) → Buf (Elt Ideal) ℓ) (ρ : Dev nD → PrngReg)

/-- The input flattened to 16384 rows. -/
def flat (c : Dev nD) : SX.Idx → EReal := Cert.ReferenceIdeal.Read.val_main_v0 (F := Ideal) (m ((c.tc : Thread nD τ).loc main_arg0))
/-- The normalised bank. -/
def bankOf (c : Dev nD) : SB.Idx → EReal := Cert.ReferenceIdeal.Read.val_main_v22 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- Slab `n` of the staged input is rows `n · 512 + c` of the flattened input. -/
theorem slab_rows (c : Dev nD) (n : Fin 32) (cc : Fin 512) (k : Fin 1024) :
    V m c main_v18 (ix3 n cc k) = flat m c (ix2 (slabRow n cc) k) := by
  rw [KernelRun.V_v18]
  exact Reshapes.flat_cast _ _ _ n cc k

theorem bank_eq (c : Dev nD) (j : Fin 512) (k : Fin 1024) : V m c main_v17 (ix2 j k) = bankOf m c (ix2 j k) :=
  congrFun (KernelRun.V_v17 m c) _

/-- The kernel program's run, each result at the reference's function of the arguments. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v20) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v21) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0) = Cert.ReferenceIdeal.Read.val_main_v0 (F := Ideal) (m ((c.tc : Thread nD τ).loc main_arg0))
      ∧ r.2.mem ((c.tc : Thread nD τ).loc main_v17) = Cert.ReferenceIdeal.Read.val_main_v22 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v22) = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (KernelRun.run_named m ρ)
  obtain ⟨h20, h21, h0, h17, h22, hargs⟩ := h c
  obtain ⟨r0, r1, r2, r3, r4, r5⟩ := FiniteArgs.args_real m hpre c
  have hXr : ∀ i, IsReal (flat m c i) := RealBank.flat_real _ r0
  have hBr : ∀ i, IsReal (bankOf m c i) := RealBank.bank_real _ _ _ _ _ r1 r2 r3 r4 r5
  refine ⟨?_, ?_, h0.trans (KernelRun.V_v0 m c), h17.trans (KernelRun.V_v17 m c), ?_, hargs⟩
  · rw [h20, Arrays.final2 m (flat m c) (bankOf m c) c (slab_rows m c) (bank_eq m c) hXr hBr]
    unfold Cert.ReferenceIdeal.Read.val_main_v46
    rw [RefValue.out_eq]
    exact Reshapes.out_cast (Arrays.GOut (flat m c) (bankOf m c)) (outArr (flat m c) (bankOf m c)) _ _ (fun _ _ _ => rfl)
  · rw [h21, Arrays.final3 m (flat m c) (bankOf m c) c (slab_rows m c) (bank_eq m c) hXr hBr, RefValue.avg_eq]
    exact Reshapes.avg_cast (Arrays.GAvg (flat m c) (bankOf m c)) (avgArr (flat m c) (bankOf m c)) _ (fun _ _ _ => rfl)
  · rw [h22, Arrays.final4 m (flat m c) (bankOf m c) c (slab_rows m c) (bank_eq m c) hXr hBr, RefValue.att_eq]
    exact Reshapes.att_cast (Arrays.GAtt (flat m c) (bankOf m c)) (attArr (flat m c) (bankOf m c)) _ (fun _ _ _ => rfl)

end Cert.Addressing.KernelValue

end
-- ==== Proof.lean ====
/-
  A memory-addressing block: every row of the input is scaled to unit length, compared with every row of a
  normalised memory bank, passed through a softmax, a hard shrink and a renormalisation; the resulting attention
  weights read the bank out, and their mean over each sample's channels is broadcast over the sample's plane.

  The kernel program computes this one sample (512 rows) per grid point, multiplying by reciprocals and by the
  column of 1/512 where the reference divides; the bank itself is computed by the same host operations in both
  programs. On the extended reals, under the precondition that the inputs are finite, the two programs' five results
  are equal entry by entry:
  · the similarities are real, so every softmax numerator is a positive real, the softmax denominator is not zero,
    and the product with its reciprocal is the quotient; the second denominator is at least ε > 0;
  · a product with 1/512 of a sum is the sum divided by 512, on every extended real;
  · the slabs tile the rows, and the reshapes keep the row-major order.
  The three frames are the generated ones (the reference's from its generated run); the idealization rewrote nothing.
-/
import proofs.«136410_j73375221285179_2_alg».proof.Defs
import proofs.«136410_j73375221285179_2_alg».proof.Proof.Gen.Kernel
import proofs.«136410_j73375221285179_2_alg».proof.Proof.Gen.Kernel.Frame
import proofs.«136410_j73375221285179_2_alg».proof.Proof.Gen.KernelIdeal
import proofs.«136410_j73375221285179_2_alg».proof.Proof.Gen.KernelIdeal.Frame
import proofs.«136410_j73375221285179_2_alg».proof.Proof.Gen.ReferenceIdeal
import proofs.«136410_j73375221285179_2_alg».proof.Proof.Gen.ReferenceIdeal.Run
import proofs.«136410_j73375221285179_2_alg».proof.Proof.Gen.ReferenceIdeal.Read
import proofs.«136410_j73375221285179_2_alg».proof.Proof.Gen.Pre_finite_inputs
import proofs.«136410_j73375221285179_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Both programs end with each result at the reference's function of the (agreeing) arguments. -/
theorem algebraic : Cert.algebraic_KernelIdeal_ReferenceIdeal := by
  intro m ρ m' ρ' hpre hagree
  refine ⟨_, _, _, _, _, Cert.Addressing.KernelValue.run m ρ hpre, ?_⟩
  refine (θ_run Cert.ReferenceIdeal.defs _ _).mono (fun r h c => ?_) (Cert.ReferenceIdeal.Value.run (F := Ideal) m' ρ')
  obtain ⟨h46, h52, h0, h22, h44, hargs⟩ := h c
  obtain ⟨e0, e1, e2, e3, e4, e5⟩ := hagree c
  refine ⟨?_, ?_, ?_, ?_, ?_, hargs⟩
  · rw [h46, Cert.ReferenceIdeal.Read.val_main_v46_eq, e0, e1, e2, e3, e4, e5]
  · rw [h52, Cert.ReferenceIdeal.Read.val_main_v52_eq, e0, e1, e2, e3, e4, e5]
  · rw [h0, e0]; rfl
  · rw [h22, e1, e2, e3, e4, e5]; rfl
  · rw [h44, Cert.ReferenceIdeal.Read.val_main_v44_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
